-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_scale" .f32 0x3D13CD3A#32 ((524288 / 14529495 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768x768 : Shape := ⟨2, ![768, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x768 .f32) (main_arg8 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S8x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S8x2048x768 : Shape := ⟨3, ![8, 2048, 768]⟩
abbrev S768x768 : Shape := ⟨2, ![768, 768]⟩
abbrev S768 : Shape := ⟨1, ![768]⟩
abbrev S16384x768 : Shape := ⟨2, ![16384, 768]⟩
abbrev S1x768 : Shape := ⟨2, ![1, 768]⟩
abbrev S1024x768 : Shape := ⟨2, ![1024, 768]⟩
abbrev S1x256x768 : Shape := ⟨3, ![1, 256, 768]⟩
abbrev S1x2048x768 : Shape := ⟨3, ![1, 2048, 768]⟩
abbrev S256x768 : Shape := ⟨2, ![256, 768]⟩
abbrev S2048x768 : Shape := ⟨2, ![2048, 768]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 24
  | .smem => 0
  | _ => 0

abbrev bufTy : (tb : Table) → Fin (tcTables nBuf tb) → BufTy
  | .hbm, ⟨0, _⟩ => ⟨S8x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768x768, .bf16⟩
  | .hbm, ⟨11, _⟩ => ⟨S768x768, .f32⟩
  | .hbm, ⟨12, _⟩ => ⟨S768x768, .bf16⟩
  | .hbm, ⟨13, _⟩ => ⟨S768x768, .f32⟩
  | .hbm, ⟨14, _⟩ => ⟨S768x768, .bf16⟩
  | .hbm, ⟨15, _⟩ => ⟨S768x768, .f32⟩
  | .hbm, ⟨16, _⟩ => ⟨S768x768, .bf16⟩
  | .hbm, ⟨17, _⟩ => ⟨S16384x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S16384x768, .bf16⟩
  | .hbm, ⟨23, _⟩ => ⟨S16384x768, .bf16⟩
  | .hbm, ⟨24, _⟩ => ⟨S16384x768, .bf16⟩
  | .hbm, ⟨25, _⟩ => ⟨S8x2048x768, .bf16⟩
  | .hbm, ⟨26, _⟩ => ⟨S8x2048x768, .bf16⟩
  | .hbm, ⟨27, _⟩ => ⟨S8x2048x768, .bf16⟩
  | .hbm, ⟨28, _⟩ => ⟨S8x2048x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S1x768, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1x256x768, .bf16⟩
  | .local _ .vmem, ⟨15, _⟩ => ⟨S1x256x768, .bf16⟩
  | .local _ .vmem, ⟨16, _⟩ => ⟨S1x2048x768, .bf16⟩
  | .local _ .vmem, ⟨17, _⟩ => ⟨S1x2048x768, .bf16⟩
  | .local _ .vmem, ⟨18, _⟩ => ⟨S1x2048x768, .bf16⟩
  | .local _ .vmem, ⟨19, _⟩ => ⟨S1x2048x768, .bf16⟩
  | .local _ .vmem, ⟨20, _⟩ => ⟨S768x768, .bf16⟩
  | .local _ .vmem, ⟨21, _⟩ => ⟨S1x768, .f32⟩
  | .local _ .vmem, ⟨22, _⟩ => ⟨S1x256x768, .f32⟩
  | .local _ .vmem, ⟨23, _⟩ => ⟨S1x256x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S768x768_S768x768_1_0 : S768x768.Transposes [1, 0] S768x768
  bitsLt_bf16_f32 : FTy.bits .bf16 < FTy.bits .f32
  shapeCasts_S8x2048x768_S16384x768 : S8x2048x768.ShapeCasts S16384x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  packedbf16_S1024x768_S1024x768_0_0 : (Rect.unit (s := S1024x768) ![0, 0] S1024x768.size inb_S1024x768_S1024x768_0_0).PackedRows (EltTy.packing .bf16)
  shapeCasts_S16384x768_S8x2048x768 : S16384x768.ShapeCasts S8x2048x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  reduces_S256x2048_S256 : S256x2048.Reduces [1] S256
  shapeCasts_S256_S256x1 : S256.ShapeCasts S256x1
  broadcasts_S256x1_S256x2048 : S256x1.Broadcasts S256x2048
  broadcasts_S256x1_S256x768 : S256x1.Broadcasts S256x768
  broadcasts_S1x768_S256x768 : S1x768.Broadcasts S256x768
  shapeCasts_S256x768_S1x256x768 : S256x768.ShapeCasts S1x256x768
  dot_S1024x768_S768x768_S1024x768_1_0_0_1_n_n_wf : DotDims.WF S1024x768 S768x768 S1024x768 [1] [0] [0] [1] [] []
  dot_S256x768_S2048x768_S256x2048_1_1_0_0_n_n_wf : DotDims.WF S256x768 S2048x768 S256x2048 [1] [1] [0] [0] [] []
  dot_S256x2048_S2048x768_S256x768_1_0_0_1_n_n_wf : DotDims.WF S256x2048 S2048x768 S256x768 [1] [0] [0] [1] [] []
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x768.size a ≤ S16384x768.size a
  hwx0_7 : ∀ i : grid0.Coords, EltTy.bits .bf16 = 32 ∨ (Rect.block (s := S16384x768) S1024x768.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x768.size a ≤ S16384x768.size a
  hwx0_8 : ∀ i : grid0.Coords, EltTy.bits .bf16 = 32 ∨ (Rect.block (s := S16384x768) S1024x768.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x768.size a ≤ S16384x768.size a
  hwx0_9 : ∀ i : grid0.Coords, EltTy.bits .bf16 = 32 ∨ (Rect.block (s := S16384x768) S1024x768.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S8x2048x768.size a
  hwx1_0 : ∀ i : grid1.Coords, EltTy.bits .bf16 = 32 ∨ (Rect.block (s := S8x2048x768) S1x256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S8x2048x768.size a
  hwx1_1 : ∀ i : grid1.Coords, EltTy.bits .bf16 = 32 ∨ (Rect.block (s := S8x2048x768) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S8x2048x768.size a
  hwx1_2 : ∀ i : grid1.Coords, EltTy.bits .bf16 = 32 ∨ (Rect.block (s := S8x2048x768) S1x2048x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x768.size a ≤ S8x2048x768.size a
  hwx1_5 : ∀ i : grid1.Coords, EltTy.bits .f32 = 32 ∨ (Rect.block (s := S8x2048x768) S1x256x768.size (cc1_transform_5 i) (hinb1_5 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S256x768_S2048x768_S256x2048_1_1_0_0_n_n : DotDims S256x768 S2048x768 S256x2048 where
  lhsContracting := [1]
  rhsContracting := [1]
  lhsNonContracting := [0]
  rhsNonContracting := [0]
  lhsBatch := []
  rhsBatch := []
  wf := dot_S256x768_S2048x768_S256x2048_1_1_0_0_n_n_wf
def dot_S256x2048_S2048x768_S256x768_1_0_0_1_n_n : DotDims S256x2048 S2048x768 S256x768 where
  lhsContracting := [1]
  rhsContracting := [0]
  lhsNonContracting := [0]
  rhsNonContracting := [1]
  lhsBatch := []
  rhsBatch := []
  wf := dot_S256x2048_S2048x768_S256x768_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_v8) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S1024x768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S1024x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_2) S1024x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x256x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x768 : Shape := ⟨3, ![8, 2048, 768]⟩
abbrev S768x768 : Shape := ⟨2, ![768, 768]⟩
abbrev S768 : Shape := ⟨1, ![768]⟩
abbrev S_ : Shape := ⟨0, ![]⟩
abbrev S1x1x768 : Shape := ⟨3, ![1, 1, 768]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S_, .f32⟩
  | .hbm, ⟨10, _⟩ => ⟨S8x2048x768, .f32⟩
  | .hbm, ⟨11, _⟩ => ⟨S1x1x768, .f32⟩
  | .hbm, ⟨12, _⟩ => ⟨S8x2048x768, .f32⟩
  | .hbm, ⟨13, _⟩ => ⟨S8x2048x768, .f32⟩
  | .hbm, ⟨14, _⟩ => ⟨S8x2048x768, .f32⟩
  | .hbm, ⟨15, _⟩ => ⟨S1x1x768, .f32⟩
  | .hbm, ⟨16, _⟩ => ⟨S8x2048x768, .f32⟩
  | .hbm, ⟨17, _⟩ => ⟨S8x2048x768, .f32⟩
  | .hbm, ⟨18, _⟩ => ⟨S8x2048x768, .f32⟩
  | .hbm, ⟨19, _⟩ => ⟨S1x1x768, .f32⟩
  | .hbm, ⟨20, _⟩ => ⟨S8x2048x768, .f32⟩
  | .hbm, ⟨21, _⟩ => ⟨S8x2048x768, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x768, .f32⟩
  | .hbm, ⟨40, _⟩ => ⟨S8x2048x768, .f32⟩
  | .hbm, ⟨41, _⟩ => ⟨S1x1x768, .f32⟩
  | .hbm, ⟨42, _⟩ => ⟨S8x2048x768, .f32⟩
  | .hbm, ⟨43, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S768x768_S8x2048x768_2_1_01_0_n_n_wf : DotDims.WF S8x2048x768 S768x768 S8x2048x768 [2] [1] [0, 1] [0] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.KernelRun.lean ====
/-
  The idealized kernel's run with its RESULT named. Every weakly fair execution of the program terminates without a
  fault, leaves the nine argument arrays as launched, and leaves the result buffer holding what the second region's
  write-backs leave in its output array: the contents at the last segment boundary, read at the result's reference.
  The run is the chain of the program's four segments (host operations, the projection region, host operations, the
  attention region); the final state is read against the last boundary's contents at every unscoped buffer, the
  result's among them.
-/
import proofs.«110132_j49065706389646_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Result

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.ProjPayload.lean ====
/-
  The projection body's stored value at one entry. The body multiplies a 1024 x 768 block of the flattened activations
  by a 768 x 768 matrix held as (input feature, output feature), adds a bias row broadcast down the 1024 rows, and
  stores the sum (the two changes of float format are the identity on the extended reals). At row p and column e this is
      (sum over d of x[p, d] * w[d, e]) + bias[0, e].
  The three stored values (queries, keys, values) are this one function of the activations block and of their own
  matrix and bias row.
-/
import proofs.«110132_j49065706389646_2_alg».proof.Proof.Gen.KernelIdeal.Skeleton
import proofs.«110132_j49065706389646_2_alg».proof.Proof.LibMatmulNN
import Idealize.ShloMosaic.Lib.Pipeline.Value
import Idealize.ShloMosaic.Lib.ValueIdx

noncomputable section

namespace Cert.KernelIdeal.Proj

open Cert.KernelIdeal Cert.KernelIdeal.Gen Idealize.ShloMosaic Idealize.ShloMosaic.ValueIdx

/-- A 1 x 768 row broadcast down 1024 rows, read at (p, e), is the row's entry e. -/
theorem bias_rows (β : S1x768.Idx → EReal) (p : Fin 1024) (e : Fin 768) :
    broadcastTo S1024x768 β broadcasts_S1x768_S1024x768 (ix2 p e) = β (ix2 (0 : Fin 1) e) := by
  refine broadcastTo_apply β _ (ix2 p e) (ix2 (0 : Fin 1) e) ?_
  intro a
  match a with
  | ⟨0, _⟩ => rfl
  | ⟨1, _⟩ => rfl

/-- The stored query block at (p, e). -/
theorem pay2_apply (x0 : Vec Ideal S1024x768 .f32) (w : Vec Ideal S768x768 .bf16) (β : Vec Ideal S1x768 .f32)
    (p : Fin 1024) (e : Fin 768) :
    k0_pay2 (F := Ideal) x0 w β (ix2 p e) = (∑ d : Fin 768, x0 (ix2 p d) * w (ix2 d e)) + β (ix2 (0 : Fin 1) e) := by
  unfold k0_pay2 k0_pay1
  dsimp only
  rw [truncf_apply, addf_apply, shapeCast_self, shapeCast_self, shapeCast_self, bias_rows]
  rw [Cert.LibMatmulNN.matmul_zero_apply' dot_S1024x768_S768x768_S1024x768_1_0_0_1_n_n rfl rfl rfl rfl rfl rfl]
  rfl

/-- The stored key block is the same function of its own matrix and bias row. -/
theorem pay3_apply (x0 : Vec Ideal S1024x768 .f32) (w : Vec Ideal S768x768 .bf16) (β : Vec Ideal S1x768 .f32)
    (p : Fin 1024) (e : Fin 768) :
    k0_pay3 (F := Ideal) x0 w β (ix2 p e) = (∑ d : Fin 768, x0 (ix2 p d) * w (ix2 d e)) + β (ix2 (0 : Fin 1) e) :=
  pay2_apply x0 w β p e

/-- And so is the stored value block. -/
theorem pay4_apply (x0 : Vec Ideal S1024x768 .f32) (w : Vec Ideal S768x768 .bf16) (β : Vec Ideal S1x768 .f32)
    (p : Fin 1024) (e : Fin 768) :
    k0_pay4 (F := Ideal) x0 w β (ix2 p e) = (∑ d : Fin 768, x0 (ix2 p d) * w (ix2 d e)) + β (ix2 (0 : Fin 1) e) :=
  pay2_apply x0 w β p e

end Cert.KernelIdeal.Proj

end
-- ==== Proof.Region0.lean ====
/-
  What the projection region leaves in its three output arrays, as whole-array functions of the arrays it reads.

  The region has 16 grid points. Point t reads rows 1024 t .. 1024 t + 1023 of the flattened activations (16384 x 768),
  the whole of each weight matrix and bias row, and writes rows 1024 t .. 1024 t + 1023 of each output. The value
  written at (row, e) depends only on that row of the activations: (sum_d X[row, d] * W[d, e]) + bias[0, e]. So every
  block written is the restriction of ONE function of the input arrays to that block, the 16 blocks tile the 16384
  rows, and each output array ends holding that function.
-/
import proofs.«110132_j49065706389646_2_alg».proof.Proof.Gen.KernelIdeal.Frame
import proofs.«110132_j49065706389646_2_alg».proof.Proof.ProjPayload

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The projected array: entry (row, e) of X · W + bias, with W held as (input feature, output feature). -/
def projArr (X : S16384x768.Idx → EReal) (W : S768x768.Idx → EReal) (β : S1x768.Idx → EReal) : S16384x768.Idx → EReal :=
  fun i => (∑ d : Fin 768, X (ix2 (i 0 : Fin 16384) d) * W (ix2 d (i 1 : Fin 768))) + β (ix2 (0 : Fin 1) (i 1 : Fin 768))

theorem projArr_apply (X : S16384x768.Idx → EReal) (W : S768x768.Idx → EReal) (β : S1x768.Idx → EReal) (r : Fin 16384) (e : Fin 768) :
    projArr X W β (ix2 r e) = (∑ d : Fin 768, X (ix2 r d) * W (ix2 d e)) + β (ix2 (0 : Fin 1) e) := rfl

/-! ## Output window 7 -/

/-- The printed index maps over the grid: the activations' and the output's blocks move together down the rows, the
    matrix and the bias row stay put. -/
theorem idx_facts7 : ∀ t : Fin cfg0.N, win0_0.index t (0 : Fin 2) = win0_7.index t (0 : Fin 2)
    ∧ win0_0.index t (1 : Fin 2) = 0 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_7.index t (0 : Fin 2) ≤ 15 :=
  (by decide +kernel : ∀ t : Fin grid0.N, _)

/-- Every one of the 16 row blocks is some point's. -/
theorem idx_onto7 : ∀ q0 : Fin 16, ∃ t : Fin cfg0.N, win0_7.index t = ![q0.val, 0] :=
  (by decide +kernel : ∀ q0 : Fin 16, ∃ t : Fin grid0.N, win0_7.index t = ![q0.val, 0])

/-- What point t writes back is block t of the projected array. -/
theorem flushed7_eq (c : Dev nD) (t : Fin cfg0.N) :
    (dat0 V c).flushed 7 t
      = ((cfg0.win 7).blk t).view.read (Elt Ideal) (projArr (V c main_v8) (V c main_v1) (V c main_v9)) := by
  show (cfg0.win 7).cut (grid0.coords t) ((dat0 V c).after 7 t) = _
  rw [after0_7]
  unfold out0_7
  rw [View.canon_unit_zero hz]
  simp only [View.ld_unit_zero (S := S1024x768) hz, View.ld_unit_zero (S := S768x768) hz, View.ld_unit_zero (S := S1x768) hz]
  obtain ⟨e0, e1, e2, e3, e4, e5, e6, e7⟩ := idx_facts7 t
  funext j
  obtain ⟨p, e, rfl⟩ : ∃ (p : Fin 1024) (e : Fin 768), j = ix2 p e := ⟨j 0, j 1, eq_ix2 j⟩
  refine (Proj.pay2_apply (iblk0 V c 0 t) (iblk0 V c 1 t) (iblk0 V c 2 t) p e).trans ?_
  show _ = projArr (V c main_v8) (V c main_v1) (V c main_v9) (((cfg0.win 7).blk t).view.emb (ix2 p e))
  have hx : ∀ d : Fin 768, ((cfg0.win 0).blk t).view.emb (ix2 p d)
      = ix2 (⟨win0_7.index t (0 : Fin 2) * 1024 + p.val, by have := p.isLt; omega⟩ : Fin 16384) d := by
    intro d; funext a; apply Fin.ext
    match a with
    | ⟨0, _⟩ => show win0_0.index t (0 : Fin 2) * 1024 + 1 * p.val = win0_7.index t (0 : Fin 2) * 1024 + p.val; omega
    | ⟨1, _⟩ => show win0_0.index t (1 : Fin 2) * 768 + 1 * d.val = d.val; omega
  have hw : ∀ d : Fin 768, ((cfg0.win 1).blk t).view.emb (ix2 d e) = ix2 d e := by
    intro d; funext a; apply Fin.ext
    match a with
    | ⟨0, _⟩ => show win0_1.index t (0 : Fin 2) * 768 + 1 * d.val = d.val; omega
    | ⟨1, _⟩ => show win0_1.index t (1 : Fin 2) * 768 + 1 * e.val = e.val; omega
  have hb : ((cfg0.win 2).blk t).view.emb (ix2 (0 : Fin 1) e) = ix2 (0 : Fin 1) e := by
    funext a; apply Fin.ext
    match a with
    | ⟨0, _⟩ => show win0_2.index t (0 : Fin 2) * 1 + 1 * 0 = 0; omega
    | ⟨1, _⟩ => show win0_2.index t (1 : Fin 2) * 768 + 1 * e.val = e.val; omega
  have ho : ((cfg0.win 7).blk t).view.emb (ix2 p e)
      = ix2 (⟨win0_7.index t (0 : Fin 2) * 1024 + p.val, by have := p.isLt; omega⟩ : Fin 16384) e := by
    funext a; apply Fin.ext
    match a with
    | ⟨0, _⟩ => show win0_7.index t (0 : Fin 2) * 1024 + 1 * p.val = win0_7.index t (0 : Fin 2) * 1024 + p.val; omega
    | ⟨1, _⟩ => show win0_7.index t (1 : Fin 2) * 768 + 1 * e.val = e.val; omega
  rw [ho, projArr_apply]
  congr 1
  · refine Finset.sum_congr rfl fun d _ => ?_
    congr 1
    · exact congrArg (V c main_v8) (hx d)
    · exact congrArg (V c main_v1) (hw d)
  · exact congrArg (V c main_v9) hb

/-- An index of the output array is in point t's block iff each coordinate is in the block's range. -/
theorem mem_blk7 (t : Fin cfg0.N) (i : S16384x768.Idx) :
    i ∈ ((cfg0.win 7).blk t).view.set ↔ ∀ a : Fin 2, win0_7.index t a * S1024x768.size a ≤ (i a).val ∧ (i a).val < win0_7.index t a * S1024x768.size a + S1024x768.size a := by
  show i ∈ ((View.whole main_v13_0).slice (win0_7.rect t)).set ↔ _
  rw [View.set_slice_whole, Rect.mem_set_unit]
  exact Iff.rfl

/-- The 16 blocks cover the array. -/
theorem cover7 (i : S16384x768.Idx) :
    ∃ t : Fin cfg0.N, (cfg0.win 7).flush t = true ∧ i ∈ ((cfg0.win 7).blk t).view.set := by
  have hi0 : (i 0).val < 16384 := (i 0).isLt
  have hi1 : (i 1).val < 768 := (i 1).isLt
  obtain ⟨t, ht⟩ := idx_onto7 ⟨(i 0).val / 1024, by omega⟩
  have q0 : win0_7.index t (0 : Fin 2) = (i 0).val / 1024 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 768 ≤ (i 1).val ∧ (i 1).val < win0_7.index t (1 : Fin 2) * 768 + 768; omega

/-- The output array after the region: the projected array. -/
theorem final7 (c : Dev nD) :
    (dat0 V c).arrAt 7 cfg0.N = projArr (V c main_v8) (V c main_v1) (V c main_v9) :=
  (dat0 V c).arrAt_eq_of_cover 7 _ (fun t _ => flushed7_eq V c t) cover7

/-! ## Output window 8 -/

/-- The printed index maps over the grid: the activations' and the output's blocks move together down the rows, the
    matrix and the bias row stay put. -/
theorem idx_facts8 : ∀ t : Fin cfg0.N, win0_0.index t (0 : Fin 2) = win0_8.index t (0 : Fin 2)
    ∧ win0_0.index t (1 : Fin 2) = 0 ∧ win0_8.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_8.index t (0 : Fin 2) ≤ 15 :=
  (by decide +kernel : ∀ t : Fin grid0.N, _)

/-- Every one of the 16 row blocks is some point's. -/
theorem idx_onto8 : ∀ q0 : Fin 16, ∃ t : Fin cfg0.N, win0_8.index t = ![q0.val, 0] :=
  (by decide +kernel : ∀ q0 : Fin 16, ∃ t : Fin grid0.N, win0_8.index t = ![q0.val, 0])

/-- What point t writes back is block t of the projected array. -/
theorem flushed8_eq (c : Dev nD) (t : Fin cfg0.N) :
    (dat0 V c).flushed 8 t
      = ((cfg0.win 8).blk t).view.read (Elt Ideal) (projArr (V c main_v8) (V c main_v3) (V c main_v10)) := by
  show (cfg0.win 8).cut (grid0.coords t) ((dat0 V c).after 8 t) = _
  rw [after0_8]
  unfold out0_8
  rw [View.canon_unit_zero hz]
  simp only [View.ld_unit_zero (S := S1024x768) hz, View.ld_unit_zero (S := S768x768) hz, View.ld_unit_zero (S := S1x768) hz]
  obtain ⟨e0, e1, e2, e3, e4, e5, e6, e7⟩ := idx_facts8 t
  funext j
  obtain ⟨p, e, rfl⟩ : ∃ (p : Fin 1024) (e : Fin 768), j = ix2 p e := ⟨j 0, j 1, eq_ix2 j⟩
  refine (Proj.pay3_apply (iblk0 V c 0 t) (iblk0 V c 3 t) (iblk0 V c 4 t) p e).trans ?_
  show _ = projArr (V c main_v8) (V c main_v3) (V c main_v10) (((cfg0.win 8).blk t).view.emb (ix2 p e))
  have hx : ∀ d : Fin 768, ((cfg0.win 0).blk t).view.emb (ix2 p d)
      = ix2 (⟨win0_8.index t (0 : Fin 2) * 1024 + p.val, by have := p.isLt; omega⟩ : Fin 16384) d := by
    intro d; funext a; apply Fin.ext
    match a with
    | ⟨0, _⟩ => show win0_0.index t (0 : Fin 2) * 1024 + 1 * p.val = win0_8.index t (0 : Fin 2) * 1024 + p.val; omega
    | ⟨1, _⟩ => show win0_0.index t (1 : Fin 2) * 768 + 1 * d.val = d.val; omega
  have hw : ∀ d : Fin 768, ((cfg0.win 3).blk t).view.emb (ix2 d e) = ix2 d e := by
    intro d; funext a; apply Fin.ext
    match a with
    | ⟨0, _⟩ => show win0_3.index t (0 : Fin 2) * 768 + 1 * d.val = d.val; omega
    | ⟨1, _⟩ => show win0_3.index t (1 : Fin 2) * 768 + 1 * e.val = e.val; omega
  have hb : ((cfg0.win 4).blk t).view.emb (ix2 (0 : Fin 1) e) = ix2 (0 : Fin 1) e := by
    funext a; apply Fin.ext
    match a with
    | ⟨0, _⟩ => show win0_4.index t (0 : Fin 2) * 1 + 1 * 0 = 0; omega
    | ⟨1, _⟩ => show win0_4.index t (1 : Fin 2) * 768 + 1 * e.val = e.val; omega
  have ho : ((cfg0.win 8).blk t).view.emb (ix2 p e)
      = ix2 (⟨win0_8.index t (0 : Fin 2) * 1024 + p.val, by have := p.isLt; omega⟩ : Fin 16384) e := by
    funext a; apply Fin.ext
    match a with
    | ⟨0, _⟩ => show win0_8.index t (0 : Fin 2) * 1024 + 1 * p.val = win0_8.index t (0 : Fin 2) * 1024 + p.val; omega
    | ⟨1, _⟩ => show win0_8.index t (1 : Fin 2) * 768 + 1 * e.val = e.val; omega
  rw [ho, projArr_apply]
  congr 1
  · refine Finset.sum_congr rfl fun d _ => ?_
    congr 1
    · exact congrArg (V c main_v8) (hx d)
    · exact congrArg (V c main_v3) (hw d)
  · exact congrArg (V c main_v10) hb

/-- An index of the output array is in point t's block iff each coordinate is in the block's range. -/
theorem mem_blk8 (t : Fin cfg0.N) (i : S16384x768.Idx) :
    i ∈ ((cfg0.win 8).blk t).view.set ↔ ∀ a : Fin 2, win0_8.index t a * S1024x768.size a ≤ (i a).val ∧ (i a).val < win0_8.index t a * S1024x768.size a + S1024x768.size a := by
  show i ∈ ((View.whole main_v13_1).slice (win0_8.rect t)).set ↔ _
  rw [View.set_slice_whole, Rect.mem_set_unit]
  exact Iff.rfl

/-- The 16 blocks cover the array. -/
theorem cover8 (i : S16384x768.Idx) :
    ∃ t : Fin cfg0.N, (cfg0.win 8).flush t = true ∧ i ∈ ((cfg0.win 8).blk t).view.set := by
  have hi0 : (i 0).val < 16384 := (i 0).isLt
  have hi1 : (i 1).val < 768 := (i 1).isLt
  obtain ⟨t, ht⟩ := idx_onto8 ⟨(i 0).val / 1024, by omega⟩
  have q0 : win0_8.index t (0 : Fin 2) = (i 0).val / 1024 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 768 ≤ (i 1).val ∧ (i 1).val < win0_8.index t (1 : Fin 2) * 768 + 768; omega

/-- The output array after the region: the projected array. -/
theorem final8 (c : Dev nD) :
    (dat0 V c).arrAt 8 cfg0.N = projArr (V c main_v8) (V c main_v3) (V c main_v10) :=
  (dat0 V c).arrAt_eq_of_cover 8 _ (fun t _ => flushed8_eq V c t) cover8

/-! ## Output window 9 -/

/-- The printed index maps over the grid: the activations' and the output's blocks move together down the rows, the
    matrix and the bias row stay put. -/
theorem idx_facts9 : ∀ t : Fin cfg0.N, win0_0.index t (0 : Fin 2) = win0_9.index t (0 : Fin 2)
    ∧ win0_0.index t (1 : Fin 2) = 0 ∧ win0_9.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) ≤ 15 :=
  (by decide +kernel : ∀ t : Fin grid0.N, _)

/-- Every one of the 16 row blocks is some point's. -/
theorem idx_onto9 : ∀ q0 : Fin 16, ∃ t : Fin cfg0.N, win0_9.index t = ![q0.val, 0] :=
  (by decide +kernel : ∀ q0 : Fin 16, ∃ t : Fin grid0.N, win0_9.index t = ![q0.val, 0])

/-- What point t writes back is block t of the projected array. -/
theorem flushed9_eq (c : Dev nD) (t : Fin cfg0.N) :
    (dat0 V c).flushed 9 t
      = ((cfg0.win 9).blk t).view.read (Elt Ideal) (projArr (V c main_v8) (V c main_v5) (V c main_v11)) := by
  show (cfg0.win 9).cut (grid0.coords t) ((dat0 V c).after 9 t) = _
  rw [after0_9]
  unfold out0_9
  rw [View.canon_unit_zero hz]
  simp only [View.ld_unit_zero (S := S1024x768) hz, View.ld_unit_zero (S := S768x768) hz, View.ld_unit_zero (S := S1x768) hz]
  obtain ⟨e0, e1, e2, e3, e4, e5, e6, e7⟩ := idx_facts9 t
  funext j
  obtain ⟨p, e, rfl⟩ : ∃ (p : Fin 1024) (e : Fin 768), j = ix2 p e := ⟨j 0, j 1, eq_ix2 j⟩
  refine (Proj.pay4_apply (iblk0 V c 0 t) (iblk0 V c 5 t) (iblk0 V c 6 t) p e).trans ?_
  show _ = projArr (V c main_v8) (V c main_v5) (V c main_v11) (((cfg0.win 9).blk t).view.emb (ix2 p e))
  have hx : ∀ d : Fin 768, ((cfg0.win 0).blk t).view.emb (ix2 p d)
      = ix2 (⟨win0_9.index t (0 : Fin 2) * 1024 + p.val, by have := p.isLt; omega⟩ : Fin 16384) d := by
    intro d; funext a; apply Fin.ext
    match a with
    | ⟨0, _⟩ => show win0_0.index t (0 : Fin 2) * 1024 + 1 * p.val = win0_9.index t (0 : Fin 2) * 1024 + p.val; omega
    | ⟨1, _⟩ => show win0_0.index t (1 : Fin 2) * 768 + 1 * d.val = d.val; omega
  have hw : ∀ d : Fin 768, ((cfg0.win 5).blk t).view.emb (ix2 d e) = ix2 d e := by
    intro d; funext a; apply Fin.ext
    match a with
    | ⟨0, _⟩ => show win0_5.index t (0 : Fin 2) * 768 + 1 * d.val = d.val; omega
    | ⟨1, _⟩ => show win0_5.index t (1 : Fin 2) * 768 + 1 * e.val = e.val; omega
  have hb : ((cfg0.win 6).blk t).view.emb (ix2 (0 : Fin 1) e) = ix2 (0 : Fin 1) e := by
    funext a; apply Fin.ext
    match a with
    | ⟨0, _⟩ => show win0_6.index t (0 : Fin 2) * 1 + 1 * 0 = 0; omega
    | ⟨1, _⟩ => show win0_6.index t (1 : Fin 2) * 768 + 1 * e.val = e.val; omega
  have ho : ((cfg0.win 9).blk t).view.emb (ix2 p e)
      = ix2 (⟨win0_9.index t (0 : Fin 2) * 1024 + p.val, by have := p.isLt; omega⟩ : Fin 16384) e := by
    funext a; apply Fin.ext
    match a with
    | ⟨0, _⟩ => show win0_9.index t (0 : Fin 2) * 1024 + 1 * p.val = win0_9.index t (0 : Fin 2) * 1024 + p.val; omega
    | ⟨1, _⟩ => show win0_9.index t (1 : Fin 2) * 768 + 1 * e.val = e.val; omega
  rw [ho, projArr_apply]
  congr 1
  · refine Finset.sum_congr rfl fun d _ => ?_
    congr 1
    · exact congrArg (V c main_v8) (hx d)
    · exact congrArg (V c main_v5) (hw d)
  · exact congrArg (V c main_v11) hb

/-- An index of the output array is in point t's block iff each coordinate is in the block's range. -/
theorem mem_blk9 (t : Fin cfg0.N) (i : S16384x768.Idx) :
    i ∈ ((cfg0.win 9).blk t).view.set ↔ ∀ a : Fin 2, win0_9.index t a * S1024x768.size a ≤ (i a).val ∧ (i a).val < win0_9.index t a * S1024x768.size a + S1024x768.size a := by
  show i ∈ ((View.whole main_v13_2).slice (win0_9.rect t)).set ↔ _
  rw [View.set_slice_whole, Rect.mem_set_unit]
  exact Iff.rfl

/-- The 16 blocks cover the array. -/
theorem cover9 (i : S16384x768.Idx) :
    ∃ t : Fin cfg0.N, (cfg0.win 9).flush t = true ∧ i ∈ ((cfg0.win 9).blk t).view.set := by
  have hi0 : (i 0).val < 16384 := (i 0).isLt
  have hi1 : (i 1).val < 768 := (i 1).isLt
  obtain ⟨t, ht⟩ := idx_onto9 ⟨(i 0).val / 1024, by omega⟩
  have q0 : win0_9.index t (0 : Fin 2) = (i 0).val / 1024 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 768 ≤ (i 1).val ∧ (i 1).val < win0_9.index t (1 : Fin 2) * 768 + 768; omega

/-- The output array after the region: the projected array. -/
theorem final9 (c : Dev nD) :
    (dat0 V c).arrAt 9 cfg0.N = projArr (V c main_v8) (V c main_v5) (V c main_v11) :=
  (dat0 V c).arrAt_eq_of_cover 9 _ (fun t _ => flushed9_eq V c t) cover9

end Cert.KernelIdeal.Region0

end
-- ==== Proof.Spec.lean ====
/-
  The mathematics both programs compute, stated once over literal shapes and free of either program.

  Inputs: an activation array x[b, s, d] (8 x 2048 x 768), four weight matrices W[e, d] (768 x 768) and four
  bias vectors (768), all over the extended reals.

  A linear layer is y[b, s, e] = (sum over d of x[b, s, d] * W[e, d]) + bias[e]. Queries, keys and values are three
  linear layers of x. The raw score of query row q against key row k in batch b is the sum over d of Q[b,q,d] * K[b,k,d].

  The two programs differ in two places only:
  * the score is SCALED by multiplying with the rational 524288/14529495 (one arrangement) or by dividing by the
    value of the f32 word 0x41DDB3D7, which is 14529495/524288 (the other): the same number;
  * with w[k] = exp(score[k] - max over k' of score[k']), one arrangement forms (sum_k w[k] * V[k, d]) / (sum_k w[k]),
    the other sum_k (w[k] / sum_k' w[k']) * V[k, d]. These agree when the weights and values are real numbers and
    the normaliser is a nonzero real, which is the case for finite inputs (every w[k] is in (0, 1], and the row
    maximum is attained, so the normaliser is at least 1).
  The result is one more linear layer applied to the attention output.
-/
import Idealize.ShloMosaic.PureOps.Ideal
import Idealize.ShloMosaic.Lib.ValueIdx

noncomputable section

namespace Cert.AttnSpec

open Idealize.ShloMosaic Idealize.ShloMosaic.ValueIdx

/-- An activation array as the programs hold it: indexed by a rank-3 index of extents 8, 2048, 768. -/
abbrev Act := (⟨3, ![8, 2048, 768]⟩ : Shape).Idx → EReal
/-- A weight matrix W[e, d]. -/
abbrev Wgt := (⟨2, ![768, 768]⟩ : Shape).Idx → EReal
/-- A bias vector. -/
abbrev Bias := (⟨1, ![768]⟩ : Shape).Idx → EReal
/-- An activation array by its three coordinates (batch, row, feature). -/
abbrev Cube := Fin 8 → Fin 2048 → Fin 768 → EReal

/-- Read an activation array by coordinates. -/
def ofAct (x : Act) : Cube := fun b s d => x (ix3 b s d)

/-- The linear layer y[b, s, e] = (sum_d x[b, s, d] * W[e, d]) + bias[e]. -/
def lin (x : Cube) (W : Wgt) (β : Bias) : Cube :=
  fun b s e => (∑ d : Fin 768, x b s d * W (ix2 e d)) + β (ix1 e)

/-- The raw score of query row q against key row k of batch b. -/
def dots (Q K : Cube) (b : Fin 8) (q k : Fin 2048) : EReal := ∑ d : Fin 768, Q b q d * K b k d

/-- The maximum of a row of 2048 scores, as a fold of max from the bottom element. -/
def rowMax (f : Fin 2048 → EReal) : EReal := (Finset.univ : Finset (Fin 2048)).fold max ⊥ f

/-- The scale as a rational: 524288/14529495. -/
def invScale : EReal := ((524288 / 14529495 : ℝ) : EReal)

/-- The scale's divisor as the f32 word the other program carries. -/
def scaleWord : EReal := Ideal.ofBits .f32 0x41DDB3D7#32

/-! ### The arrangement that multiplies by the scale and divides after the sum -/

def scoreMul (Q K : Cube) (b : Fin 8) (q k : Fin 2048) : EReal := dots Q K b q k * invScale

def weightMul (Q K : Cube) (b : Fin 8) (q k : Fin 2048) : EReal :=
  Ideal.exp (scoreMul Q K b q k - rowMax (scoreMul Q K b q))

def attnDivAfter (Q K V : Cube) : Cube :=
  fun b q d => Ideal.div (∑ k : Fin 2048, weightMul Q K b q k * V b k d) (∑ k : Fin 2048, weightMul Q K b q k)

/-! ### The arrangement that divides by the scale word and normalises each weight before the sum -/

def scoreDiv (Q K : Cube) (b : Fin 8) (q k : Fin 2048) : EReal := Ideal.div (dots Q K b q k) scaleWord

def weightDiv (Q K : Cube) (b : Fin 8) (q k : Fin 2048) : EReal :=
  Ideal.exp (scoreDiv Q K b q k - rowMax (scoreDiv Q K b q))

def attnNormFirst (Q K V : Cube) : Cube :=
  fun b q d => ∑ k : Fin 2048, Ideal.div (weightDiv Q K b q k) (∑ k' : Fin 2048, weightDiv Q K b q k') * V b k d

/-! ### The two whole results -/

def outK (x : Act) (Wq : Wgt) (bq : Bias) (Wk : Wgt) (bk : Bias) (Wv : Wgt) (bv : Bias) (Wp : Wgt) (bp : Bias) : Cube :=
  lin (attnDivAfter (lin (ofAct x) Wq bq) (lin (ofAct x) Wk bk) (lin (ofAct x) Wv bv)) Wp bp

def outR (x : Act) (Wq : Wgt) (bq : Bias) (Wk : Wgt) (bk : Bias) (Wv : Wgt) (bv : Bias) (Wp : Wgt) (bp : Bias) : Cube :=
  lin (attnNormFirst (lin (ofAct x) Wq bq) (lin (ofAct x) Wk bk) (lin (ofAct x) Wv bv)) Wp bp

/-- Every entry of an array is a real number. -/
def AllReal {ι : Type} (f : ι → EReal) : Prop := ∀ i, ∃ r : ℝ, f i = (r : EReal)

end Cert.AttnSpec

end
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.AttnPayload.lean ====
/-
  The attention body's stored value at one entry.

  The body holds one block of 256 query rows and all 2048 key and value rows of one batch element, each row of 768
  features. It forms the 256 x 2048 scores (the dot product of a query row with a key row, times the rational scale
  524288/14529495), takes each row's maximum as a fold of max from minus infinity, forms the weights
  exp(score - row maximum) and their row sums, multiplies the weights into the values and divides each row by its sum,
  and applies the last linear layer: a 768 x 768 matrix held as (input feature, output feature) and a bias row. The
  changes of float format are the identity on the extended reals. At row r and column e the stored value is
      (sum over d of attn[r, d] * wp[d, e]) + bias[0, e],
  with attn[r, d] = (sum over j of w[r, j] * v[j, d]) / (sum over j of w[r, j]).
-/
import proofs.«110132_j49065706389646_2_alg».proof.Proof.Gen.KernelIdeal.Skeleton
import proofs.«110132_j49065706389646_2_alg».proof.Proof.Spec
import proofs.«110132_j49065706389646_2_alg».proof.Proof.LibMatmulNN
import proofs.«110132_j49065706389646_2_alg».proof.Proof.LibMatmulNT
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Attn

open Cert.KernelIdeal Cert.KernelIdeal.Gen Idealize.ShloMosaic Idealize.ShloMosaic.ValueIdx

/-! ## The block's mathematics -/

/-- The scaled score of query row r against key row j of one block: the dot product over the 768 features, times the
    rational scale. -/
def blockScore (q : S1x256x768.Idx → EReal) (k : S1x2048x768.Idx → EReal) (r : Fin 256) (j : Fin 2048) : EReal :=
  (∑ d : Fin 768, q (ix3 (0 : Fin 1) r d) * k (ix3 (0 : Fin 1) j d)) * Cert.AttnSpec.invScale

/-- The weight of key row j for query row r: the exponential of the score less the row's maximum score. -/
def blockWeight (q : S1x256x768.Idx → EReal) (k : S1x2048x768.Idx → EReal) (r : Fin 256) (j : Fin 2048) : EReal :=
  Ideal.exp (blockScore q k r j - Cert.AttnSpec.rowMax (blockScore q k r))

/-- The attention output at row r and feature d: the weighted sum of the values divided by the sum of the weights. -/
def blockAttn (q : S1x256x768.Idx → EReal) (k v : S1x2048x768.Idx → EReal) (r : Fin 256) (d : Fin 768) : EReal :=
  Ideal.div (∑ j : Fin 2048, blockWeight q k r j * v (ix3 (0 : Fin 1) j d)) (∑ j : Fin 2048, blockWeight q k r j)

/-! ## The body's intermediate arrays, as it computes them -/

/-- The 256 x 2048 array of scaled scores. -/
def scoreArr (q : Vec Ideal S1x256x768 .bf16) (k : Vec Ideal S1x2048x768 .bf16) : FVec Ideal S256x2048 .f32 :=
  mulf (matmul dot_S256x768_S2048x768_S256x2048_1_1_0_0_n_n none
      (shapeCast S256x768 q shapeCasts_S1x256x768_S256x768 : FVec Ideal S256x768 .bf16)
      (shapeCast S2048x768 k shapeCasts_S1x2048x768_S2048x768 : FVec Ideal S2048x768 .bf16)
      (constant S256x2048 .f32 0x00000000#32))
    (broadcast S256x2048 (Named.named κ "inv_scale" 0x3D13CD3A#32 : Ideal .f32))

/-- The 256 x 2048 array of weights. -/
def weightArr (q : Vec Ideal S1x256x768 .bf16) (k : Vec Ideal S1x2048x768 .bf16) : FVec Ideal S256x2048 .f32 :=
  exp (subf (scoreArr q k) (broadcastTo S256x2048 (shapeCast S256x1
    (multiReduction .maximumf [1] S256 (scoreArr q k) 0xFF800000#32 reduces_S256x2048_S256 (.inl rfl) rfl)
    shapeCasts_S256_S256x1 : FVec Ideal S256x1 .f32) broadcasts_S256x1_S256x2048))

/-- The 256 x 768 array of attention outputs. -/
def attnArr (q : Vec Ideal S1x256x768 .bf16) (k v : Vec Ideal S1x2048x768 .bf16) : FVec Ideal S256x768 .f32 :=
  divf (matmul dot_S256x2048_S2048x768_S256x768_1_0_0_1_n_n none
      (truncf .bf16 (weightArr q k) bitsLt_bf16_f32 : FVec Ideal S256x2048 .bf16)
      (shapeCast S2048x768 v shapeCasts_S1x2048x768_S2048x768 : FVec Ideal S2048x768 .bf16)
      (constant S256x768 .f32 0x00000000#32))
    (broadcastTo S256x768 (shapeCast S256x1
      (multiReduction .add [1] S256 (weightArr q k) 0x00000000#32 reduces_S256x2048_S256 (.inl rfl) rfl)
      shapeCasts_S256_S256x1 : FVec Ideal S256x1 .f32) broadcasts_S256x1_S256x768)

/-- The array the body stores, before the unit axis is put in front: the last product and bias over those arrays. -/
def outArr (q : Vec Ideal S1x256x768 .bf16) (k v : Vec Ideal S1x2048x768 .bf16) (wp : Vec Ideal S768x768 .bf16)
    (β : Vec Ideal S1x768 .f32) : FVec Ideal S256x768 .f32 :=
  addf (matmul dot_S256x768_S768x768_S256x768_1_0_0_1_n_n none
      (truncf .bf16 (attnArr q k v) bitsLt_bf16_f32 : FVec Ideal S256x768 .bf16)
      (shapeCast S768x768 wp shapeCasts_S768x768_S768x768 : FVec Ideal S768x768 .bf16)
      (constant S256x768 .f32 0x00000000#32))
    (broadcastTo S256x768 (shapeCast S1x768 β shapeCasts_S1x768_S1x768 : FVec Ideal S1x768 .f32) broadcasts_S1x768_S256x768)

/-- The stored value is that array with a unit axis put in front. -/
theorem pay_eq (q : Vec Ideal S1x256x768 .bf16) (k v : Vec Ideal S1x2048x768 .bf16) (wp : Vec Ideal S768x768 .bf16)
    (β : Vec Ideal S1x768 .f32) :
    k1_pay1 (F := Ideal) q k v wp β = shapeCast S1x256x768 (outArr q k v wp β) shapeCasts_S256x768_S1x256x768 := rfl

/-! ## Layout: the two column forms -/

/-- A vector of 256 entries viewed as a 256 x 1 column reads, at (r, u), the vector's entry r. -/
theorem col_cast (x : S256.Idx → EReal) (r : Fin 256) (u : Fin 1) :
    shapeCast S256x1 x shapeCasts_S256_S256x1 (ix2 r u) = x (ix1 r) :=
  shapeCast_apply x _ _ _ (by
    have hu : u.val = 0 := by omega
    rw [Shape.rowMajor_val_one, Shape.rowMajor_val_two]
    show r.val = r.val * 1 + u.val
    omega)

/-- A 256 x 1 column broadcast along 2048 columns reads, at (r, j), the column's entry r. -/
theorem col_bcast_2048 (x : S256x1.Idx → EReal) (r : Fin 256) (j : Fin 2048) :
    broadcastTo S256x2048 x broadcasts_S256x1_S256x2048 (ix2 r j) = x (ix2 r (0 : Fin 1)) := by
  refine broadcastTo_apply x _ (ix2 r j) (ix2 r (0 : Fin 1)) ?_
  intro a
  match a with
  | ⟨0, _⟩ => rfl
  | ⟨1, _⟩ => rfl

/-- A 256 x 1 column broadcast along 768 columns reads, at (r, d), the column's entry r. -/
theorem col_bcast_768 (x : S256x1.Idx → EReal) (r : Fin 256) (d : Fin 768) :
    broadcastTo S256x768 x broadcasts_S256x1_S256x768 (ix2 r d) = x (ix2 r (0 : Fin 1)) := by
  refine broadcastTo_apply x _ (ix2 r d) (ix2 r (0 : Fin 1)) ?_
  intro a
  match a with
  | ⟨0, _⟩ => rfl
  | ⟨1, _⟩ => rfl

/-- A 1 x 768 row broadcast down 256 rows reads, at (r, e), the row's entry e. -/
theorem bias_rows (β : S1x768.Idx → EReal) (r : Fin 256) (e : Fin 768) :
    broadcastTo S256x768 β broadcasts_S1x768_S256x768 (ix2 r e) = β (ix2 (0 : Fin 1) e) := by
  refine broadcastTo_apply β _ (ix2 r e) (ix2 (0 : Fin 1) e) ?_
  intro a
  match a with
  | ⟨0, _⟩ => rfl
  | ⟨1, _⟩ => rfl

/-! ## The scaled scores -/

/-- The named scale is the rational 524288/14529495. -/
theorem inv_scale_named :
    Named.named (F := Ideal) κ "inv_scale" (φ := .f32) 0x3D13CD3A#32 = Cert.AttnSpec.invScale :=
  IdealRules.named_const.ideal_named_scalar _ _ _ _ rfl

/-- The product of the query block with the transposed key block, read at (r, j). -/
theorem mm_scores (A : FVec Ideal S256x768 .bf16) (B : FVec Ideal S2048x768 .bf16) (r : Fin 256) (j : Fin 2048) :
    matmul dot_S256x768_S2048x768_S256x2048_1_1_0_0_n_n none A B (constant S256x2048 .f32 0x00000000#32) (ix2 r j)
      = ∑ d : Fin 768, A (ix2 r d) * B (ix2 j d) :=
  Cert.Lib.MatmulNT.matmul_zero_nt_apply _ none A B r j

/-- The array of scaled scores at (r, j). -/
theorem scoreArr_apply (q : Vec Ideal S1x256x768 .bf16) (k : Vec Ideal S1x2048x768 .bf16) (r : Fin 256) (j : Fin 2048) :
    scoreArr q k (ix2 r j) = blockScore q k r j := by
  unfold scoreArr blockScore
  rw [mulf_apply, broadcast_apply, inv_scale_named, mm_scores]
  simp only [shapeCast_1ab_ab_apply]

/-! ## The row maximum, the weights and their row sum -/

/-- The f32 word of minus infinity is the bottom element of the extended reals. -/
theorem ofBits_neg_inf : Ideal.ofBits .f32 0xFF800000#32 = (⊥ : EReal) := by
  simp [Ideal.ofBits, Ideal.ieee]

/-- An exponential read at an index is the exponential of the entry. -/
theorem exp_apply {s : Shape} {φ : FTy} (a : FVec Ideal s φ) (i : s.Idx) : exp a i = Ideal.exp (a i) := rfl

/-- A reduction by maximum along the rows of a 256 x 2048 array, from minus infinity, read at row r: the fold of max
    from the bottom element over the row's 2048 entries. -/
theorem max_red_apply (s : FVec Ideal S256x2048 .f32) (r : Fin 256) :
    multiReduction (F := Ideal) .maximumf [1] S256 s 0xFF800000#32 reduces_S256x2048_S256 (.inl rfl) rfl (ix1 r)
      = Cert.AttnSpec.rowMax (fun j => s (ix2 r j)) := by
  refine (Ideal.multiReduction_maximumf_single s 0xFF800000#32 reduces_S256x2048_S256 (.inl rfl) rfl (ix1 r)).trans ?_
  rw [Ideal.ofBits_def, ofBits_neg_inf]
  have hlift : ∀ j : Fin 2048, reduces_S256x2048_S256.lift (ix1 r) j = ix2 r j := fun j =>
    funext fun a => Fin.ext (by match a with | ⟨0, _⟩ => rfl | ⟨1, _⟩ => rfl)
  have hf : (s ∘ reduces_S256x2048_S256.lift (ix1 r)) = fun j : Fin 2048 => s (ix2 r j) :=
    funext fun j => congrArg s (hlift j)
  unfold Cert.AttnSpec.rowMax
  rw [← hf]
  rfl

/-- A reduction by addition along the rows of a 256 x 2048 array, read at row r: the sum of the row's 2048 entries. -/
theorem add_red_apply (s : FVec Ideal S256x2048 .f32) (r : Fin 256) :
    multiReduction (F := Ideal) .add [1] S256 s 0x00000000#32 reduces_S256x2048_S256 (.inl rfl) rfl (ix1 r)
      = ∑ j : Fin 2048, s (ix2 r j) := by
  refine (Ideal.multiReduction_add_single s 0x00000000#32 reduces_S256x2048_S256 (.inl rfl) rfl (ix1 r)).trans ?_
  exact Finset.sum_congr rfl fun j _ =>
    congrArg s (funext fun a => Fin.ext (by match a with | ⟨0, _⟩ => rfl | ⟨1, _⟩ => rfl))

/-- The array of weights at (r, j). -/
theorem weightArr_apply (q : Vec Ideal S1x256x768 .bf16) (k : Vec Ideal S1x2048x768 .bf16) (r : Fin 256) (j : Fin 2048) :
    weightArr q k (ix2 r j) = blockWeight q k r j := by
  unfold weightArr blockWeight
  rw [exp_apply, subf_apply, col_bcast_2048, col_cast, max_red_apply]
  simp only [scoreArr_apply]

/-! ## The attention output and the stored value -/

/-- The array of attention outputs at (r, d). -/
theorem attnArr_apply (q : Vec Ideal S1x256x768 .bf16) (k v : Vec Ideal S1x2048x768 .bf16) (r : Fin 256) (d : Fin 768) :
    attnArr q k v (ix2 r d) = blockAttn q k v r d := by
  unfold attnArr blockAttn
  rw [divf_apply, col_bcast_768, col_cast, add_red_apply,
    Cert.LibMatmulNN.matmul_zero_apply' dot_S256x2048_S2048x768_S256x768_1_0_0_1_n_n rfl rfl rfl rfl rfl rfl]
  simp only [truncf_apply, weightArr_apply, shapeCast_1ab_ab_apply]

/-- The array the body stores, at (r, e): the attention outputs of row r times column e of the last matrix, plus the
    bias row's entry e. -/
theorem outArr_apply (q : Vec Ideal S1x256x768 .bf16) (k v : Vec Ideal S1x2048x768 .bf16) (wp : Vec Ideal S768x768 .bf16)
    (β : Vec Ideal S1x768 .f32) (r : Fin 256) (e : Fin 768) :
    outArr q k v wp β (ix2 r e) = (∑ d : Fin 768, blockAttn q k v r d * wp (ix2 d e)) + β (ix2 (0 : Fin 1) e) := by
  unfold outArr
  rw [addf_apply, bias_rows, shapeCast_self, shapeCast_self,
    Cert.LibMatmulNN.matmul_zero_apply' dot_S256x768_S768x768_S256x768_1_0_0_1_n_n rfl rfl rfl rfl rfl rfl]
  simp only [truncf_apply, attnArr_apply]

/-- The attention body's stored value at the entry (0, r, e). -/
theorem pay_attn_apply (q : Vec Ideal S1x256x768 .bf16) (k v : Vec Ideal S1x2048x768 .bf16) (wp : Vec Ideal S768x768 .bf16)
    (β : Vec Ideal S1x768 .f32) (r : Fin 256) (e : Fin 768) :
    k1_pay1 (F := Ideal) q k v wp β (ix3 (0 : Fin 1) r e)
      = (∑ d : Fin 768, blockAttn q k v r d * wp (ix2 d e)) + β (ix2 (0 : Fin 1) e) := by
  rw [pay_eq, shapeCast_ab_1ab_apply, outArr_apply]

end Cert.KernelIdeal.Attn

end
-- ==== Proof.Region1.lean ====
/-
  What the attention region leaves in its output array, as one whole-array function of the arrays it reads.

  The region has 8 x 8 grid points. Point (b, qi) reads rows 256 qi .. 256 qi + 255 of batch b of the queries, ALL 2048
  rows of batch b of the keys and of the values, the whole output-projection matrix and bias row, and writes rows
  256 qi .. 256 qi + 255 of batch b of the output. For a query row the body forms the scaled scores against every key
  row of its batch, subtracts their maximum, exponentiates, and divides the weighted sum of the value rows by the sum
  of the weights; the row of attention outputs is then multiplied by the projection matrix and the bias added. The
  value at (b, row, e) depends on the query block only through that one row, so every block written is the
  restriction of ONE function of the input arrays, the 64 blocks tile the array, and the array ends holding that
  function.
-/
import proofs.«110132_j49065706389646_2_alg».proof.Proof.Gen.KernelIdeal.Frame
import Idealize.ShloMosaic.Lib.Pipeline.Value
import proofs.«110132_j49065706389646_2_alg».proof.Proof.AttnPayload

set_option maxRecDepth 16384

noncomputable section

namespace Cert.KernelIdeal.Region1

open Cert.KernelIdeal Cert.KernelIdeal.Gen Cert.AttnSpec Cert.KernelIdeal.Attn
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The attention region's output: the attention of the three arrays, row by row within each batch, through the
    output projection held as (input feature, output feature) plus the bias row. -/
def attnOut (Q K Vv : S8x2048x768.Idx → EReal) (Wp : S768x768.Idx → EReal) (β : S1x768.Idx → EReal) : S8x2048x768.Idx → EReal :=
  fun i => (∑ d : Fin 768, attnDivAfter (ofAct Q) (ofAct K) (ofAct Vv) (i 0 : Fin 8) (i 1 : Fin 2048) d * Wp (ix2 d (i 2 : Fin 768)))
    + β (ix2 (0 : Fin 1) (i 2 : Fin 768))

theorem attnOut_apply (Q K Vv : S8x2048x768.Idx → EReal) (Wp : S768x768.Idx → EReal) (β : S1x768.Idx → EReal)
    (b : Fin 8) (s : Fin 2048) (e : Fin 768) :
    attnOut Q K Vv Wp β (ix3 b s e)
      = (∑ d : Fin 768, attnDivAfter (ofAct Q) (ofAct K) (ofAct Vv) b s d * Wp (ix2 d e)) + β (ix2 (0 : Fin 1) e) := rfl

/-- One block's attention is the whole arrays' attention at the block's rows: the query block is rows r0 .. r0 + 255 of
    batch b, the key and value blocks are all of batch b. -/
theorem blockAttn_eq (Q K Vv : S8x2048x768.Idx → EReal) (q : S1x256x768.Idx → EReal) (k v : S1x2048x768.Idx → EReal)
    (b : Fin 8) (r0 : Nat) (hr0 : r0 + 256 ≤ 2048)
    (hq : ∀ (r : Fin 256) (d : Fin 768), q (ix3 (0 : Fin 1) r d) = Q (ix3 b (⟨r0 + r.val, by have := r.isLt; omega⟩ : Fin 2048) d))
    (hk : ∀ (j : Fin 2048) (d : Fin 768), k (ix3 (0 : Fin 1) j d) = K (ix3 b j d))
    (hv : ∀ (j : Fin 2048) (d : Fin 768), v (ix3 (0 : Fin 1) j d) = Vv (ix3 b j d))
    (r : Fin 256) (d : Fin 768) :
    blockAttn q k v r d = attnDivAfter (ofAct Q) (ofAct K) (ofAct Vv) b (⟨r0 + r.val, by have := r.isLt; omega⟩ : Fin 2048) d := by
  have hs : ∀ j : Fin 2048, blockScore q k r j = scoreMul (ofAct Q) (ofAct K) b (⟨r0 + r.val, by have := r.isLt; omega⟩ : Fin 2048) j := by
    intro j
    unfold blockScore scoreMul dots ofAct
    simp only [hq, hk]
  have hw : ∀ j : Fin 2048, blockWeight q k r j = weightMul (ofAct Q) (ofAct K) b (⟨r0 + r.val, by have := r.isLt; omega⟩ : Fin 2048) j := by
    intro j
    unfold blockWeight weightMul
    rw [hs j, show blockScore q k r = scoreMul (ofAct Q) (ofAct K) b (⟨r0 + r.val, by have := r.isLt; omega⟩ : Fin 2048) from funext hs]
  unfold blockAttn attnDivAfter
  simp only [hw, hv]
  rfl

/-! ## Output window 5 -/

/-- The printed index maps over the grid: the query and output blocks move together over (batch, row block); the key
    and value blocks follow the batch only; the projection matrix and bias row stay put. -/
theorem idx_facts5 : ∀ t : Fin cfg1.N, win1_0.index t (0 : Fin 3) = win1_5.index t (0 : Fin 3)
    ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (2 : Fin 3) = 0 ∧ win1_5.index t (0 : Fin 3) ≤ 7 ∧ win1_5.index t (1 : Fin 3) ≤ 7 :=
  (by decide +kernel : ∀ t : Fin grid1.N, _)

/-- Every (batch, row block) is some point's. -/
theorem idx_onto5 : ∀ (q0 : Fin 8) (q1 : Fin 8), ∃ t : Fin cfg1.N, win1_5.index t = ![q0.val, q1.val, 0] :=
  (by decide +kernel : ∀ (q0 : Fin 8) (q1 : Fin 8), ∃ t : Fin grid1.N, win1_5.index t = ![q0.val, q1.val, 0])

/-- The batch a point works on. -/
theorem batch_lt (t : Fin cfg1.N) : win1_5.index t (0 : Fin 3) < 8 := by
  obtain ⟨e0, e1, e2, e3, e4, e5, e6, e7, e8, e9, e10, e11, e12, e13, e14, e15⟩ := idx_facts5 t
  omega
theorem rowblk_le (t : Fin cfg1.N) : win1_5.index t (1 : Fin 3) ≤ 7 := by
  obtain ⟨e0, e1, e2, e3, e4, e5, e6, e7, e8, e9, e10, e11, e12, e13, e14, e15⟩ := idx_facts5 t
  omega
def batchOf (t : Fin cfg1.N) : Fin 8 := ⟨win1_5.index t (0 : Fin 3), batch_lt t⟩
/-- Row r of a point's 256-row block, as a row of the batch. -/
def rowOf (t : Fin cfg1.N) (r : Fin 256) : Fin 2048 :=
  ⟨win1_5.index t (1 : Fin 3) * 256 + r.val, by have := rowblk_le t; have := r.isLt; omega⟩
theorem rowOf_val (t : Fin cfg1.N) (r : Fin 256) : (rowOf t r).val = win1_5.index t (1 : Fin 3) * 256 + r.val := rfl

/-! Each window's block at a point, index by index, inside its array. -/

theorem emb_out (t : Fin cfg1.N) (r : Fin 256) (e : Fin 768) :
    ((cfg1.win 5).blk t).view.emb (ix3 (0 : Fin 1) r e) = ix3 (batchOf t) (rowOf t r) e := by
  obtain ⟨e0, e1, e2, e3, e4, e5, e6, e7, e8, e9, e10, e11, e12, e13, e14, e15⟩ := idx_facts5 t
  funext a; apply Fin.ext
  match a with
  | ⟨0, _⟩ => show win1_5.index t (0 : Fin 3) * 1 + 1 * 0 = win1_5.index t (0 : Fin 3); omega
  | ⟨1, _⟩ => show win1_5.index t (1 : Fin 3) * 256 + 1 * r.val = win1_5.index t (1 : Fin 3) * 256 + r.val; omega
  | ⟨2, _⟩ => show win1_5.index t (2 : Fin 3) * 768 + 1 * e.val = e.val; omega

theorem emb_q (t : Fin cfg1.N) (r : Fin 256) (d : Fin 768) :
    ((cfg1.win 0).blk t).view.emb (ix3 (0 : Fin 1) r d) = ix3 (batchOf t) (rowOf t r) d := by
  obtain ⟨e0, e1, e2, e3, e4, e5, e6, e7, e8, e9, e10, e11, e12, e13, e14, e15⟩ := idx_facts5 t
  funext a; apply Fin.ext
  match a with
  | ⟨0, _⟩ => show win1_0.index t (0 : Fin 3) * 1 + 1 * 0 = win1_5.index t (0 : Fin 3); omega
  | ⟨1, _⟩ => show win1_0.index t (1 : Fin 3) * 256 + 1 * r.val = win1_5.index t (1 : Fin 3) * 256 + r.val; omega
  | ⟨2, _⟩ => show win1_0.index t (2 : Fin 3) * 768 + 1 * d.val = d.val; omega

theorem emb_k (t : Fin cfg1.N) (j : Fin 2048) (d : Fin 768) :
    ((cfg1.win 1).blk t).view.emb (ix3 (0 : Fin 1) j d) = ix3 (batchOf t) j d := by
  obtain ⟨e0, e1, e2, e3, e4, e5, e6, e7, e8, e9, e10, e11, e12, e13, e14, e15⟩ := idx_facts5 t
  funext a; apply Fin.ext
  match a with
  | ⟨0, _⟩ => show win1_1.index t (0 : Fin 3) * 1 + 1 * 0 = win1_5.index t (0 : Fin 3); omega
  | ⟨1, _⟩ => show win1_1.index t (1 : Fin 3) * 2048 + 1 * j.val = j.val; omega
  | ⟨2, _⟩ => show win1_1.index t (2 : Fin 3) * 768 + 1 * d.val = d.val; omega

theorem emb_v (t : Fin cfg1.N) (j : Fin 2048) (d : Fin 768) :
    ((cfg1.win 2).blk t).view.emb (ix3 (0 : Fin 1) j d) = ix3 (batchOf t) j d := by
  obtain ⟨e0, e1, e2, e3, e4, e5, e6, e7, e8, e9, e10, e11, e12, e13, e14, e15⟩ := idx_facts5 t
  funext a; apply Fin.ext
  match a with
  | ⟨0, _⟩ => show win1_2.index t (0 : Fin 3) * 1 + 1 * 0 = win1_5.index t (0 : Fin 3); omega
  | ⟨1, _⟩ => show win1_2.index t (1 : Fin 3) * 2048 + 1 * j.val = j.val; omega
  | ⟨2, _⟩ => show win1_2.index t (2 : Fin 3) * 768 + 1 * d.val = d.val; omega

theorem emb_wp (t : Fin cfg1.N) (d e : Fin 768) :
    ((cfg1.win 3).blk t).view.emb (ix2 d e) = ix2 d e := by
  obtain ⟨e0, e1, e2, e3, e4, e5, e6, e7, e8, e9, e10, e11, e12, e13, e14, e15⟩ := idx_facts5 t
  funext a; apply Fin.ext
  match a with
  | ⟨0, _⟩ => show win1_3.index t (0 : Fin 2) * 768 + 1 * d.val = d.val; omega
  | ⟨1, _⟩ => show win1_3.index t (1 : Fin 2) * 768 + 1 * e.val = e.val; omega

theorem emb_bp (t : Fin cfg1.N) (e : Fin 768) :
    ((cfg1.win 4).blk t).view.emb (ix2 (0 : Fin 1) e) = ix2 (0 : Fin 1) e := by
  obtain ⟨e0, e1, e2, e3, e4, e5, e6, e7, e8, e9, e10, e11, e12, e13, e14, e15⟩ := idx_facts5 t
  funext a; apply Fin.ext
  match a with
  | ⟨0, _⟩ => show win1_4.index t (0 : Fin 2) * 1 + 1 * 0 = 0; omega
  | ⟨1, _⟩ => show win1_4.index t (1 : Fin 2) * 768 + 1 * e.val = e.val; omega

/-- What point t writes back is block t of the attention array. -/
theorem flushed5_eq (c : Dev nD) (t : Fin cfg1.N) :
    (dat1 V c).flushed 5 t
      = ((cfg1.win 5).blk t).view.read (Elt Ideal) (attnOut (V c main_v14) (V c main_v15) (V c main_v16) (V c main_v7) (V c main_v12)) := by
  show (cfg1.win 5).cut (grid1.coords t) ((dat1 V c).after 5 t) = _
  rw [after1_5]
  unfold out1_5
  rw [View.canon_unit_zero hz3]
  simp only [View.ld_unit_zero (S := S1x256x768) hz3, View.ld_unit_zero (S := S1x2048x768) hz3, View.ld_unit_zero (S := S768x768) hz2, View.ld_unit_zero (S := S1x768) hz2]
  funext j
  obtain ⟨z, r, e, rfl⟩ : ∃ (z : Fin 1) (r : Fin 256) (e : Fin 768), j = ix3 z r e := ⟨j 0, j 1, j 2, eq_ix3 j⟩
  obtain rfl : z = 0 := Subsingleton.elim _ _
  refine (pay_attn_apply (iblk1 V c 0 t) (iblk1 V c 1 t) (iblk1 V c 2 t) (iblk1 V c 3 t) (iblk1 V c 4 t) r e).trans ?_
  show _ = attnOut (V c main_v14) (V c main_v15) (V c main_v16) (V c main_v7) (V c main_v12) (((cfg1.win 5).blk t).view.emb (ix3 (0 : Fin 1) r e))
  rw [emb_out t r e, attnOut_apply]
  refine congrArg₂ (fun (x y : EReal) => x + y) (Finset.sum_congr rfl fun d _ => congrArg₂ (fun (x y : EReal) => x * y) ?_ ?_) ?_
  · exact blockAttn_eq (V c main_v14) (V c main_v15) (V c main_v16) (iblk1 V c 0 t) (iblk1 V c 1 t) (iblk1 V c 2 t)
      (batchOf t) (win1_5.index t (1 : Fin 3) * 256) (by have := rowblk_le t; omega)
      (fun r' d' => congrArg (V c main_v14) (emb_q t r' d')) (fun j' d' => congrArg (V c main_v15) (emb_k t j' d'))
      (fun j' d' => congrArg (V c main_v16) (emb_v t j' d')) r d
  · exact congrArg (V c main_v7) (emb_wp t d e)
  · exact congrArg (V c main_v12) (emb_bp t e)

/-- An index of the output array is in point t's block iff each coordinate is in the block's range. -/
theorem mem_blk5 (t : Fin cfg1.N) (i : S8x2048x768.Idx) :
    i ∈ ((cfg1.win 5).blk t).view.set ↔ ∀ a : Fin 3, win1_5.index t a * S1x256x768.size a ≤ (i a).val ∧ (i a).val < win1_5.index t a * S1x256x768.size a + S1x256x768.size a := by
  show i ∈ ((View.whole main_v17).slice (win1_5.rect t)).set ↔ _
  rw [View.set_slice_whole, Rect.mem_set_unit]
  exact Iff.rfl

/-- The 64 blocks cover the array. -/
theorem cover5 (i : S8x2048x768.Idx) :
    ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 768 := (i 2).isLt
  obtain ⟨t, ht⟩ := idx_onto5 ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 768 ≤ (i 2).val ∧ (i 2).val < win1_5.index t (2 : Fin 3) * 768 + 768; omega

/-- The output array after the region: the attention array. -/
theorem final5 (c : Dev nD) :
    (dat1 V c).arrAt 5 cfg1.N = attnOut (V c main_v14) (V c main_v15) (V c main_v16) (V c main_v7) (V c main_v12) :=
  (dat1 V c).arrAt_eq_of_cover 5 _ (fun t _ => flushed5_eq V c t) cover5

end Cert.KernelIdeal.Region1

end
-- ==== Proof.HostSide.lean ====
/-
  What each region finds in the arrays it reads, as terms of the launch memory.

  Before the projection region the program reshapes the activations from 8 x 2048 x 768 to 16384 x 768, transposes each
  weight matrix (and changes its float format), and reshapes each bias vector to a 1 x 768 row. Between the two
  regions it reshapes each projected 16384 x 768 array back to 8 x 2048 x 768; the output projection's matrix and bias
  row, prepared before the first region, are touched by neither the first region nor those reshapes, so the second
  region finds them as the first stretch of host operations left them.
-/
import proofs.«110132_j49065706389646_2_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the projection region's entry -/

theorem entry0_v8 (c : Dev nD) : @Eq (FVec Ideal S16384x768 .f32) (V1 m ρ c main_v8) (shapeCast S16384x768 (m ((c : Thread nD τ).loc main_arg0)) shapeCasts_S8x2048x768_S16384x768) := by
  show StableHlo.after hostOps0 (W0 m ρ c) (Proc.devRef .tc main_v8) = _
  after_results
  all_goals rfl

theorem entry0_v1 (c : Dev nD) : @Eq (FVec Ideal S768x768 .bf16) (V1 m ρ c main_v1) (truncf .bf16 (transpose S768x768 [1, 0] (m ((c : Thread nD τ).loc main_arg1)) transposes_S768x768_S768x768_1_0) bitsLt_bf16_f32) := by
  show StableHlo.after hostOps0 (W0 m ρ c) (Proc.devRef .tc main_v1) = _
  after_results
  all_goals rfl

theorem entry0_v9 (c : Dev nD) : @Eq (FVec Ideal S1x768 .f32) (V1 m ρ c main_v9) (shapeCast S1x768 (m ((c : Thread nD τ).loc main_arg2)) shapeCasts_S768_S1x768) := by
  show StableHlo.after hostOps0 (W0 m ρ c) (Proc.devRef .tc main_v9) = _
  after_results
  all_goals rfl

theorem entry0_v3 (c : Dev nD) : @Eq (FVec Ideal S768x768 .bf16) (V1 m ρ c main_v3) (truncf .bf16 (transpose S768x768 [1, 0] (m ((c : Thread nD τ).loc main_arg3)) transposes_S768x768_S768x768_1_0) bitsLt_bf16_f32) := by
  show StableHlo.after hostOps0 (W0 m ρ c) (Proc.devRef .tc main_v3) = _
  after_results
  all_goals rfl

theorem entry0_v10 (c : Dev nD) : @Eq (FVec Ideal S1x768 .f32) (V1 m ρ c main_v10) (shapeCast S1x768 (m ((c : Thread nD τ).loc main_arg4)) shapeCasts_S768_S1x768) := by
  show StableHlo.after hostOps0 (W0 m ρ c) (Proc.devRef .tc main_v10) = _
  after_results
  all_goals rfl

theorem entry0_v5 (c : Dev nD) : @Eq (FVec Ideal S768x768 .bf16) (V1 m ρ c main_v5) (truncf .bf16 (transpose S768x768 [1, 0] (m ((c : Thread nD τ).loc main_arg5)) transposes_S768x768_S768x768_1_0) bitsLt_bf16_f32) := by
  show StableHlo.after hostOps0 (W0 m ρ c) (Proc.devRef .tc main_v5) = _
  after_results
  all_goals rfl

theorem entry0_v11 (c : Dev nD) : @Eq (FVec Ideal S1x768 .f32) (V1 m ρ c main_v11) (shapeCast S1x768 (m ((c : Thread nD τ).loc main_arg6)) shapeCasts_S768_S1x768) := by
  show StableHlo.after hostOps0 (W0 m ρ c) (Proc.devRef .tc main_v11) = _
  after_results
  all_goals rfl

theorem entry0_v7 (c : Dev nD) : @Eq (FVec Ideal S768x768 .bf16) (V1 m ρ c main_v7) (truncf .bf16 (transpose S768x768 [1, 0] (m ((c : Thread nD τ).loc main_arg7)) transposes_S768x768_S768x768_1_0) bitsLt_bf16_f32) := by
  show StableHlo.after hostOps0 (W0 m ρ c) (Proc.devRef .tc main_v7) = _
  after_results
  all_goals rfl

theorem entry0_v12 (c : Dev nD) : @Eq (FVec Ideal S1x768 .f32) (V1 m ρ c main_v12) (shapeCast S1x768 (m ((c : Thread nD τ).loc main_arg8)) shapeCasts_S768_S1x768) := by
  show StableHlo.after hostOps0 (W0 m ρ c) (Proc.devRef .tc main_v12) = _
  after_results
  all_goals rfl

/-! ## At the attention region's entry -/

theorem entry1_v14 (c : Dev nD) : @Eq (FVec Ideal S8x2048x768 .bf16) (V3 m ρ c main_v14)
    (shapeCast S8x2048x768 ((dat0 (V1 m ρ) c).arrAt 7 cfg0.N) shapeCasts_S16384x768_S8x2048x768) := by
  show StableHlo.after hostOps1 (W2 m ρ c) (Proc.devRef .tc main_v14) = _
  after_results
  rw [W2_arr m ρ c 7]
  rfl

theorem entry1_v15 (c : Dev nD) : @Eq (FVec Ideal S8x2048x768 .bf16) (V3 m ρ c main_v15)
    (shapeCast S8x2048x768 ((dat0 (V1 m ρ) c).arrAt 8 cfg0.N) shapeCasts_S16384x768_S8x2048x768) := by
  show StableHlo.after hostOps1 (W2 m ρ c) (Proc.devRef .tc main_v15) = _
  after_results
  rw [W2_arr m ρ c 8]
  rfl

theorem entry1_v16 (c : Dev nD) : @Eq (FVec Ideal S8x2048x768 .bf16) (V3 m ρ c main_v16)
    (shapeCast S8x2048x768 ((dat0 (V1 m ρ) c).arrAt 9 cfg0.N) shapeCasts_S16384x768_S8x2048x768) := by
  show StableHlo.after hostOps1 (W2 m ρ c) (Proc.devRef .tc main_v16) = _
  after_results
  rw [W2_arr m ρ c 9]
  rfl

/-- Neither the reshapes between the regions nor the projection region write this buffer. -/
theorem entry1_v7 (c : Dev nD) : V3 m ρ c main_v7 = V1 m ρ c main_v7 :=
  calc V3 m ρ c main_v7
    _ = W2 m ρ c (Proc.devRef .tc main_v7) := StableHlo.after_of_forall_not_mem (b := Proc.devRef .tc main_v7) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_v7) := W2_of_ne m ρ c main_v7 (by decide)

/-- Neither the reshapes between the regions nor the projection region write this buffer. -/
theorem entry1_v12 (c : Dev nD) : V3 m ρ c main_v12 = V1 m ρ c main_v12 :=
  calc V3 m ρ c main_v12
    _ = W2 m ρ c (Proc.devRef .tc main_v12) := StableHlo.after_of_forall_not_mem (b := Proc.devRef .tc main_v12) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_v12) := W2_of_ne m ρ c main_v12 (by decide)

end Cert.KernelIdeal.HostSide

end
-- ==== Proof.HostIdx.lean ====
/-
  The host operations around the kernel regions, read at an index.

  * Reshaping [8, 2048, 768] to [16384, 768] keeps row-major position: entry (b, s, d) sits at row b * 2048 + s,
    column d; reshaping back reads row b * 2048 + s at (b, s).
  * Transposing a [768, 768] matrix swaps the two coordinates.
  * Reshaping [768] to [1, 768] reads entry e at (0, e).
  * A change of float format is the identity on extended reals.
  Hence the projection  (sum over d of xflat[b * 2048 + s, d] * Wt[d, e]) + brow[0, e]  is the linear layer
  (sum over d of x[b, s, d] * W[e, d]) + bias[e].
-/
import proofs.«110132_j49065706389646_2_alg».proof.KernelIdeal
import proofs.«110132_j49065706389646_2_alg».proof.Proof.Spec
import Idealize.ShloMosaic.Lib.Pipeline.Value
import Idealize.ShloMosaic.Lib.ValueIdx
import Idealize.ShloMosaic.Lib.ValueLayout

noncomputable section

namespace Cert.KernelIdeal.HostIdx

open Cert.KernelIdeal Cert.AttnSpec Idealize.ShloMosaic Idealize.ShloMosaic.ValueIdx

/-- The [8, 2048, 768] array flattened to [16384, 768], read at row b * 2048 + s. -/
theorem flatten_apply (x : S8x2048x768.Idx → EReal) (h : S8x2048x768.ShapeCasts S16384x768)
    (b : Fin 8) (s : Fin 2048) (d : Fin 768) :
    shapeCast S16384x768 x h
        (ix2 (⟨b.val * 2048 + s.val, by have := b.isLt; have := s.isLt; omega⟩ : Fin 16384) d) = x (ix3 b s d) :=
  shapeCast_apply x h _ _ (by
    rw [Shape.rowMajor_val_three, Shape.rowMajor_val_two]
    show (b.val * 2048 + s.val) * 768 + d.val = (b.val * 2048 + s.val) * 768 + d.val
    rfl)

/-- The [16384, 768] array reshaped to [8, 2048, 768], read at (b, s, e). -/
theorem unflatten_apply (G : S16384x768.Idx → EReal) (h : S16384x768.ShapeCasts S8x2048x768)
    (b : Fin 8) (s : Fin 2048) (e : Fin 768) :
    shapeCast S8x2048x768 G h (ix3 b s e)
      = G (ix2 (⟨b.val * 2048 + s.val, by have := b.isLt; have := s.isLt; omega⟩ : Fin 16384) e) :=
  shapeCast_apply G h _ _ (by
    rw [Shape.rowMajor_val_three, Shape.rowMajor_val_two]
    show (b.val * 2048 + s.val) * 768 + e.val = (b.val * 2048 + s.val) * 768 + e.val
    rfl)

/-- The transposed matrix at (d, e) is the matrix at (e, d). -/
theorem transposed_apply (W : S768x768.Idx → EReal) (h : S768x768.Transposes [1, 0] S768x768) (d e : Fin 768) :
    transpose S768x768 [1, 0] W h (ix2 d e) = W (ix2 e d) :=
  transpose_apply [1, 0] W h (ix2 d e) (ix2 e d) (fun b => match b with | ⟨0, _⟩ => rfl | ⟨1, _⟩ => rfl)

/-- The transposed matrix after the change of float format, at (d, e), is the matrix at (e, d). -/
theorem truncf_transposed_apply (W : S768x768.Idx → EReal) (h2 : S768x768.Transposes [1, 0] S768x768)
    (h3 : FTy.bits .bf16 < FTy.bits .f32) (d e : Fin 768) :
    truncf (F := Ideal) (φ := .f32) .bf16 (transpose S768x768 [1, 0] W h2) h3 (ix2 d e) = W (ix2 e d) := by
  rw [truncf_apply, transposed_apply]

/-- The bias reshaped to one row, read at (0, e). -/
theorem biasRow_apply (β : S768.Idx → EReal) (h : S768.ShapeCasts S1x768) (e : Fin 768) :
    shapeCast S1x768 β h (ix2 (0 : Fin 1) e) = β (ix1 e) :=
  shapeCast_a_1a_apply β h 0 e

/-- The projection of the flattened array by the transposed, format-changed matrix plus the bias row is the linear layer. -/
theorem projected_is_lin (x : S8x2048x768.Idx → EReal) (W : S768x768.Idx → EReal) (β : S768.Idx → EReal)
    (h1 : S8x2048x768.ShapeCasts S16384x768) (h2 : S768x768.Transposes [1, 0] S768x768)
    (h3 : FTy.bits .bf16 < FTy.bits .f32) (h4 : S768.ShapeCasts S1x768)
    (b : Fin 8) (s : Fin 2048) (e : Fin 768) :
    (∑ d : Fin 768,
        shapeCast S16384x768 x h1
            (ix2 (⟨b.val * 2048 + s.val, by have := b.isLt; have := s.isLt; omega⟩ : Fin 16384) d)
          * truncf (F := Ideal) (φ := .f32) .bf16 (transpose S768x768 [1, 0] W h2) h3 (ix2 d e))
        + shapeCast S1x768 β h4 (ix2 (0 : Fin 1) e)
      = lin (ofAct x) W β b s e := by
  simp only [flatten_apply, truncf_apply, biasRow_apply]
  unfold lin ofAct
  congr 1
  refine Finset.sum_congr rfl fun d _ => ?_
  rw [transposed_apply]

/-- Every row of the flattened array is row b * 2048 + s for some b and s. -/
theorem row_split (r : Fin 16384) :
    ∃ (b : Fin 8) (s : Fin 2048),
      r = (⟨b.val * 2048 + s.val, by have := b.isLt; have := s.isLt; omega⟩ : Fin 16384) :=
  ⟨⟨r.val / 2048, by have := r.isLt; omega⟩, ⟨r.val % 2048, Nat.mod_lt _ (by decide)⟩, Fin.ext (by
    show r.val = r.val / 2048 * 2048 + r.val % 2048
    omega)⟩

end Cert.KernelIdeal.HostIdx

end
-- ==== Proof.KernelValue.lean ====
/-
  The idealized kernel's result as one function of the launch arrays.

  The result buffer is the attention region's output array. That region finds, as queries, keys and values, the three
  arrays the projection region wrote, each reshaped from 16384 x 768 back to 8 x 2048 x 768; the projection region in turn
  found the activations flattened to 16384 x 768, each weight matrix transposed, and each bias as a 1 x 768 row. Reading
  every one of these layout changes at an index, a projected array reshaped back is the linear layer
  y[b, s, e] = (sum_d x[b, s, d] * W[e, d]) + bias[e] of the launch arrays, the transposed output-projection matrix at
  (d, e) is W[e, d], and the bias row at (0, e) is bias[e]. So the result at (b, s, e) is the specification's
  "divide after the sum" arrangement of the nine launch arrays.
-/
import proofs.«110132_j49065706389646_2_alg».proof.Proof.KernelRun
import proofs.«110132_j49065706389646_2_alg».proof.Proof.Region0
import proofs.«110132_j49065706389646_2_alg».proof.Proof.Region1
import proofs.«110132_j49065706389646_2_alg».proof.Proof.HostSide
import proofs.«110132_j49065706389646_2_alg».proof.Proof.HostIdx

set_option maxRecDepth 16384

noncomputable section

namespace Cert.KernelIdeal.Result

open Cert.KernelIdeal Cert.KernelIdeal.Gen Cert.AttnSpec
open Idealize.ShloMosaic Idealize.ShloMosaic.TcCoe Idealize.SL.Sem Idealize.ShloMosaic.ValueIdx

/-- A projected array, reshaped back to (batch, row, feature), is the linear layer of the launch arrays. -/
theorem projected_cube (x : S8x2048x768.Idx → EReal) (W : S768x768.Idx → EReal) (β : S768.Idx → EReal)
    (h1 : S8x2048x768.ShapeCasts S16384x768) (h2 : S768x768.Transposes [1, 0] S768x768) (h3 : FTy.bits .bf16 < FTy.bits .f32)
    (h4 : S768.ShapeCasts S1x768) (h5 : S16384x768.ShapeCasts S8x2048x768) :
    ofAct (shapeCast S8x2048x768 (Region0.projArr (shapeCast S16384x768 x h1)
        (truncf (F := Ideal) (φ := .f32) .bf16 (transpose S768x768 [1, 0] W h2) h3) (shapeCast S1x768 β h4)) h5)
      = lin (ofAct x) W β := by
  funext b s e
  show shapeCast S8x2048x768 _ h5 (ix3 b s e) = _
  rw [HostIdx.unflatten_apply, Region0.projArr_apply]
  exact HostIdx.projected_is_lin x W β h1 h2 h3 h4 b s e

variable (m : (ℓ : Loc nD τ sig) → Buf (Elt Ideal) ℓ) (ρ : Dev nD → PrngReg)

/-- The contents of the result buffer at the last segment boundary: the specification's function of the launch arrays. -/
theorem result_value (c : Dev nD) :
    W4 m ρ c (Proc.devRef .tc main_v17)
      = fun (i : S8x2048x768.Idx) => outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) (i 2) := by
  refine (W4_arr m ρ c 5).trans ?_
  rw [Region1.final5 (V3 m ρ) c]
  rw [HostSide.entry1_v14 m ρ c, HostSide.entry1_v15 m ρ c, HostSide.entry1_v16 m ρ c, HostSide.entry1_v7 m ρ c,
    HostSide.entry1_v12 m ρ c]
  rw [Region0.final7 (V1 m ρ) c, Region0.final8 (V1 m ρ) c, Region0.final9 (V1 m ρ) c]
  rw [HostSide.entry0_v8 m ρ c, HostSide.entry0_v1 m ρ c, HostSide.entry0_v9 m ρ c, HostSide.entry0_v3 m ρ c,
    HostSide.entry0_v10 m ρ c, HostSide.entry0_v5 m ρ c, HostSide.entry0_v11 m ρ c, HostSide.entry0_v7 m ρ c,
    HostSide.entry0_v12 m ρ c]
  funext i
  obtain ⟨b, s, e, rfl⟩ : ∃ (b : Fin 8) (s : Fin 2048) (e : Fin 768), i = ix3 b s e := ⟨i 0, i 1, i 2, eq_ix3 i⟩
  rw [Region1.attnOut_apply, projected_cube, projected_cube, projected_cube]
  show _ = lin _ _ _ b s e
  unfold lin
  congr 1
  · refine Finset.sum_congr rfl fun d _ => ?_
    rw [HostIdx.truncf_transposed_apply]
  · exact HostIdx.biasRow_apply _ _ e

end Cert.KernelIdeal.Result

end
-- ==== Proof.RefSide.lean ====
/-
  The reference program's result is the specification's normalise-first arrangement.

  Read entry by entry, in the order the reference computes: three linear layers of the activations (queries, keys,
  values); the raw score of a query row against a key row, divided by the scale word; the row maximum of the scaled
  scores, as a fold of max from the bottom element over the row's 2048 entries (the word of minus infinity is the
  bottom element, and the further maximum with minus infinity changes nothing); the weights exp(score - row maximum);
  their row sum (from the zero word); each weight divided by its row sum; the normalised weights applied to the
  values; and the last linear layer. Every index the reference reads an operand at is named by its coordinates.
-/
import proofs.«110132_j49065706389646_2_alg».proof.Proof.Spec
import proofs.«110132_j49065706389646_2_alg».proof.Proof.Gen.ReferenceIdeal.Read

noncomputable section

namespace Cert.RefSide

open Cert.ReferenceIdeal Cert.ReferenceIdeal.Gen Cert.ReferenceIdeal.Read Cert.AttnSpec
open Idealize.ShloMosaic Idealize.ShloMosaic.ValueIdx

/-! ## The three linear layers of the arguments (queries, keys, values), read at coordinates -/

/-- The queries: the first linear layer of the activations. -/
theorem v3_at (x0 : Act) (x1 : Wgt) (x2 : Bias) (b : Fin 8) (s : Fin 2048) (e : Fin 768) :
    val_main_v3 (F := Ideal) x0 x1 x2 (ix3 b s e) = lin (ofAct x0) x1 x2 b s e := by
  rw [val_main_v3_apply, val_main_v0_apply, val_main_v2_apply, val_main_v1_apply, Ideal.addf_def]
  have hl : ∀ k : Fin 768, lidx_main_v0 (ix3 b s e) k = ix3 b s k := fun k =>
    funext fun a => Fin.ext (by match a with | ⟨0, _⟩ => rfl | ⟨1, _⟩ => rfl | ⟨2, _⟩ => rfl)
  have hr : ∀ k : Fin 768, ridx_main_v0 (ix3 b s e) k = ix2 e k := fun k =>
    funext fun a => Fin.ext (by match a with | ⟨0, _⟩ => rfl | ⟨1, _⟩ => rfl)
  have hb : idx_main_v1 (idx_main_v2 (ix3 b s e)) = ix1 e :=
    funext fun a => Fin.ext (by match a with | ⟨0, _⟩ => rfl)
  simp only [hl, hr, hb]
  rfl

/-- The keys: the second linear layer of the activations. -/
theorem v7_at (x0 : Act) (x3 : Wgt) (x4 : Bias) (b : Fin 8) (s : Fin 2048) (e : Fin 768) :
    val_main_v7 (F := Ideal) x0 x3 x4 (ix3 b s e) = lin (ofAct x0) x3 x4 b s e := by
  rw [val_main_v7_apply, val_main_v4_apply, val_main_v6_apply, val_main_v5_apply, Ideal.addf_def]
  have hl : ∀ k : Fin 768, lidx_main_v4 (ix3 b s e) k = ix3 b s k := fun k =>
    funext fun a => Fin.ext (by match a with | ⟨0, _⟩ => rfl | ⟨1, _⟩ => rfl | ⟨2, _⟩ => rfl)
  have hr : ∀ k : Fin 768, ridx_main_v4 (ix3 b s e) k = ix2 e k := fun k =>
    funext fun a => Fin.ext (by match a with | ⟨0, _⟩ => rfl | ⟨1, _⟩ => rfl)
  have hb : idx_main_v5 (idx_main_v6 (ix3 b s e)) = ix1 e :=
    funext fun a => Fin.ext (by match a with | ⟨0, _⟩ => rfl)
  simp only [hl, hr, hb]
  rfl

/-- The values: the third linear layer of the activations. -/
theorem v11_at (x0 : Act) (x5 : Wgt) (x6 : Bias) (b : Fin 8) (s : Fin 2048) (e : Fin 768) :
    val_main_v11 (F := Ideal) x0 x5 x6 (ix3 b s e) = lin (ofAct x0) x5 x6 b s e := by
  rw [val_main_v11_apply, val_main_v8_apply, val_main_v10_apply, val_main_v9_apply, Ideal.addf_def]
  have hl : ∀ k : Fin 768, lidx_main_v8 (ix3 b s e) k = ix3 b s k := fun k =>
    funext fun a => Fin.ext (by match a with | ⟨0, _⟩ => rfl | ⟨1, _⟩ => rfl | ⟨2, _⟩ => rfl)
  have hr : ∀ k : Fin 768, ridx_main_v8 (ix3 b s e) k = ix2 e k := fun k =>
    funext fun a => Fin.ext (by match a with | ⟨0, _⟩ => rfl | ⟨1, _⟩ => rfl)
  have hb : idx_main_v9 (idx_main_v10 (ix3 b s e)) = ix1 e :=
    funext fun a => Fin.ext (by match a with | ⟨0, _⟩ => rfl)
  simp only [hl, hr, hb]
  rfl

/-! ## The scaled score -/

/-- The raw score divided by the scale word: query row q against key row k of batch b. -/
theorem v14_at (x0 : Act) (x1 : Wgt) (x2 : Bias) (x3 : Wgt) (x4 : Bias) (b : Fin 8) (q k : Fin 2048) :
    val_main_v14 (F := Ideal) x0 x1 x2 x3 x4 (ix3 b q k)
      = scoreDiv (lin (ofAct x0) x1 x2) (lin (ofAct x0) x3 x4) b q k := by
  rw [val_main_v14_apply, val_main_v12_apply, val_main_v13_apply, val_main_cst_apply, Ideal.hostDivf_def,
    Ideal.ofBits_def]
  have hl : ∀ d : Fin 768, lidx_main_v12 (ix3 b q k) d = ix3 b q d := fun d =>
    funext fun a => Fin.ext (by match a with | ⟨0, _⟩ => rfl | ⟨1, _⟩ => rfl | ⟨2, _⟩ => rfl)
  have hr : ∀ d : Fin 768, ridx_main_v12 (ix3 b q k) d = ix3 b k d := fun d =>
    funext fun a => Fin.ext (by match a with | ⟨0, _⟩ => rfl | ⟨1, _⟩ => rfl | ⟨2, _⟩ => rfl)
  simp only [hl, hr, v3_at, v7_at]
  rfl

/-! ## The row maximum -/

/-- The f32 word of minus infinity is the bottom element of the extended reals. -/
theorem ofBits_neg_inf : Ideal.ofBits .f32 0xFF800000#32 = (⊥ : EReal) := by
  simp [Ideal.ofBits, Ideal.ieee]

/-- A reduction by maximum over the last axis, started from the word of minus infinity, read at row (b, q): the fold of
    max from the bottom element over the row's 2048 entries. -/
theorem reduce_max_row (y : (⟨S8x2048x2048, .f32⟩ : BufTy).Contents (Elt Ideal)) (b : Fin 8) (q : Fin 2048) :
    Host.reduce (FloatOps.maximumf (F := Ideal) (φ := .f32)) y (val_main_cst_0 (F := Ideal))
        reducesTo_S8x2048x2048_S8x2048_d2 h_S_ (ix2 b q)
      = rowMax (fun k => y (ix3 b q k)) := by
  have h : S8x2048x2048.Reduces [2] S8x2048 := by decide
  rw [Host.reduce_eq_fold_single _ y _ reducesTo_S8x2048x2048_S8x2048_d2 h h_S_ (ix2 b q)]
  rw [val_main_cst_0_apply, Ideal.ofBits_def, ofBits_neg_inf]
  have hlift : ∀ k : Fin 2048, h.lift (ix2 b q) k = ix3 b q k := fun k =>
    funext fun a => Fin.ext (by match a with | ⟨0, _⟩ => rfl | ⟨1, _⟩ => rfl | ⟨2, _⟩ => rfl)
  have hf : (y ∘ h.lift (ix2 b q)) = fun k : Fin 2048 => y (ix3 b q k) := funext fun k => congrArg y (hlift k)
  unfold rowMax
  rw [← hf]
  rfl

/-- The reference's max-reduce at row (b, q) is the row maximum of the scaled scores. -/
theorem val_main_v15_apply (x0 : Act) (x1 : Wgt) (x2 : Bias) (x3 : Wgt) (x4 : Bias) (b : Fin 8) (q : Fin 2048) :
    val_main_v15 (F := Ideal) x0 x1 x2 x3 x4 (ix2 b q)
      = rowMax (fun k => val_main_v14 (F := Ideal) x0 x1 x2 x3 x4 (ix3 b q k)) := by
  unfold val_main_v15
  exact reduce_max_row _ b q

/-- The maximum with minus infinity changes nothing: the row maximum of the scaled scores. -/
theorem v17_at (x0 : Act) (x1 : Wgt) (x2 : Bias) (x3 : Wgt) (x4 : Bias) (b : Fin 8) (q : Fin 2048) :
    val_main_v17 (F := Ideal) x0 x1 x2 x3 x4 (ix2 b q)
      = rowMax (scoreDiv (lin (ofAct x0) x1 x2) (lin (ofAct x0) x3 x4) b q) := by
  rw [val_main_v17_apply, val_main_v16_apply, val_main_cst_1_apply, val_main_v15_apply, Ideal.maximumf_def,
    Ideal.ofBits_def, ofBits_neg_inf, bot_sup_eq]
  simp only [v14_at]

/-! ## The weights, their normaliser, and the normalised weights -/

/-- The weight of key row k for query row q: the exponential of the scaled score less the row maximum. -/
theorem v21_at (x0 : Act) (x1 : Wgt) (x2 : Bias) (x3 : Wgt) (x4 : Bias) (b : Fin 8) (q k : Fin 2048) :
    val_main_v21 (F := Ideal) x0 x1 x2 x3 x4 (ix3 b q k)
      = weightDiv (lin (ofAct x0) x1 x2) (lin (ofAct x0) x3 x4) b q k := by
  rw [val_main_v21_apply, val_main_v20_apply, val_main_v19_apply, val_main_v18_apply, Ideal.hostUnary_exp_def,
    Ideal.subf_def, v14_at]
  have hi : idx_main_v18 (idx_main_v19 (ix3 b q k)) = ix2 b q :=
    funext fun a => Fin.ext (by match a with | ⟨0, _⟩ => rfl | ⟨1, _⟩ => rfl)
  rw [hi, v17_at]
  rfl

/-- The normaliser of query row q: the sum of its weights (the sum's initial word is zero). -/
theorem v22_at (x0 : Act) (x1 : Wgt) (x2 : Bias) (x3 : Wgt) (x4 : Bias) (b : Fin 8) (q : Fin 2048) :
    val_main_v22 (F := Ideal) x0 x1 x2 x3 x4 (ix2 b q)
      = ∑ k : Fin 2048, weightDiv (lin (ofAct x0) x1 x2) (lin (ofAct x0) x3 x4) b q k := by
  rw [val_main_v22_apply, val_main_cst_2_apply, Ideal.ofBits_def, Ideal.ofBits_zero_f32, zero_add]
  have hi : ∀ k : Fin 2048, idx_main_v22 (ix2 b q) k = ix3 b q k := fun k =>
    funext fun a => Fin.ext (by match a with | ⟨0, _⟩ => rfl | ⟨1, _⟩ => rfl | ⟨2, _⟩ => rfl)
  simp only [hi, v21_at]

/-- The normalised weight: each weight divided by its row's normaliser. -/
theorem v25_at (x0 : Act) (x1 : Wgt) (x2 : Bias) (x3 : Wgt) (x4 : Bias) (b : Fin 8) (q k : Fin 2048) :
    val_main_v25 (F := Ideal) x0 x1 x2 x3 x4 (ix3 b q k)
      = Ideal.div (weightDiv (lin (ofAct x0) x1 x2) (lin (ofAct x0) x3 x4) b q k)
          (∑ k' : Fin 2048, weightDiv (lin (ofAct x0) x1 x2) (lin (ofAct x0) x3 x4) b q k') := by
  rw [val_main_v25_apply, val_main_v24_apply, val_main_v23_apply, Ideal.hostDivf_def, v21_at]
  have hi : idx_main_v23 (idx_main_v24 (ix3 b q k)) = ix2 b q :=
    funext fun a => Fin.ext (by match a with | ⟨0, _⟩ => rfl | ⟨1, _⟩ => rfl)
  rw [hi, v22_at]

/-! ## The attention output and the last linear layer -/

/-- The attention output: the normalised weights applied to the values. -/
theorem v26_at (x0 : Act) (x1 : Wgt) (x2 : Bias) (x3 : Wgt) (x4 : Bias) (x5 : Wgt) (x6 : Bias)
    (b : Fin 8) (q : Fin 2048) (d : Fin 768) :
    val_main_v26 (F := Ideal) x0 x1 x2 x3 x4 x5 x6 (ix3 b q d)
      = attnNormFirst (lin (ofAct x0) x1 x2) (lin (ofAct x0) x3 x4) (lin (ofAct x0) x5 x6) b q d := by
  rw [val_main_v26_apply]
  have hl : ∀ k : Fin 2048, lidx_main_v26 (ix3 b q d) k = ix3 b q k := fun k =>
    funext fun a => Fin.ext (by match a with | ⟨0, _⟩ => rfl | ⟨1, _⟩ => rfl | ⟨2, _⟩ => rfl)
  have hr : ∀ k : Fin 2048, ridx_main_v26 (ix3 b q d) k = ix3 b k d := fun k =>
    funext fun a => Fin.ext (by match a with | ⟨0, _⟩ => rfl | ⟨1, _⟩ => rfl | ⟨2, _⟩ => rfl)
  simp only [hl, hr, v25_at, v11_at]
  rfl

/-- The result at coordinates: the last linear layer applied to the attention output. -/
theorem v30_at (x0 : Act) (x1 : Wgt) (x2 : Bias) (x3 : Wgt) (x4 : Bias) (x5 : Wgt) (x6 : Bias) (x7 : Wgt) (x8 : Bias)
    (b : Fin 8) (s : Fin 2048) (e : Fin 768) :
    val_main_v30 (F := Ideal) x0 x1 x2 x3 x4 x5 x6 x7 x8 (ix3 b s e) = outR x0 x1 x2 x3 x4 x5 x6 x7 x8 b s e := by
  rw [val_main_v30_apply, val_main_v27_apply, val_main_v29_apply, val_main_v28_apply, Ideal.addf_def]
  have hl : ∀ k : Fin 768, lidx_main_v27 (ix3 b s e) k = ix3 b s k := fun k =>
    funext fun a => Fin.ext (by match a with | ⟨0, _⟩ => rfl | ⟨1, _⟩ => rfl | ⟨2, _⟩ => rfl)
  have hr : ∀ k : Fin 768, ridx_main_v27 (ix3 b s e) k = ix2 e k := fun k =>
    funext fun a => Fin.ext (by match a with | ⟨0, _⟩ => rfl | ⟨1, _⟩ => rfl)
  have hb : idx_main_v28 (idx_main_v29 (ix3 b s e)) = ix1 e :=
    funext fun a => Fin.ext (by match a with | ⟨0, _⟩ => rfl)
  simp only [hl, hr, hb, v26_at]
  rfl

/-- The reference program's result is the specification's normalise-first arrangement, entry by entry. -/
theorem ref_is_outR (x0 : Act) (x1 : Wgt) (x2 : Bias) (x3 : Wgt) (x4 : Bias) (x5 : Wgt) (x6 : Bias) (x7 : Wgt) (x8 : Bias) :
    val_main_v30 (F := Ideal) x0 x1 x2 x3 x4 x5 x6 x7 x8
      = fun i => outR x0 x1 x2 x3 x4 x5 x6 x7 x8 (i 0) (i 1) (i 2) := by
  funext i
  obtain ⟨b, s, e, rfl⟩ : ∃ b s e, i = ix3 b s e := ⟨i 0, i 1, i 2, eq_ix3 i⟩
  exact v30_at x0 x1 x2 x3 x4 x5 x6 x7 x8 b s e

end Cert.RefSide

end
-- ==== Proof.Algebra.lean ====
/-
  Pure extended-real mathematics: the two arrangements of the attention computation agree on real inputs.

  * The f32 word 0x41DDB3D7 (sign 0, exponent 131, trailing significand 0x5DB3D7) denotes
    (2^23 + 6140887) / 2^19 = 14529495/524288, so dividing by it is multiplying by 524288/14529495.
  * A linear layer of real arrays is real; a dot product of real rows is real; the maximum of a nonempty
    finite row of reals is real; hence every weight exp(score - max) is a positive real and the normaliser
    (a sum of positive reals over a nonempty index set) is a nonzero real.
  * For real weights a, real values v and a nonzero real normaliser l,
    (sum_k a k * v k) / l = sum_k (a k / l) * v k.
-/
import proofs.«110132_j49065706389646_2_alg».proof.Proof.Spec

noncomputable section

namespace Cert.AttnSpec

open Idealize.ShloMosaic Idealize.ShloMosaic.ValueIdx

/-- The scale word denotes the rational 14529495/524288. -/
theorem scaleWord_eq : scaleWord = ((14529495 / 524288 : ℝ) : EReal) := by
  simp [scaleWord, Ideal.ofBits, Ideal.ieee, -EReal.coe_mul]; norm_num

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A cube all of whose entries are real. -/
def RealCube (Q : Cube) : Prop := ∀ b s e, ∃ r : ℝ, Q b s e = (r : EReal)

/-- A linear layer of a real cube with real weights and a real bias is a real cube. -/
theorem lin_real (x : Cube) (W : Wgt) (β : Bias) (hx : RealCube x) (hW : AllReal W) (hβ : AllReal β) :
    RealCube (lin x W β) := by
  choose xr hxr using hx
  choose wr hwr using hW
  choose br hbr using hβ
  intro b s e
  refine ⟨(∑ d : Fin 768, xr b s d * wr (ix2 e d)) + br (ix1 e), ?_⟩
  simp only [lin, hxr, hwr, hbr]
  rw [EReal.coe_add, coe_sum]
  simp only [EReal.coe_mul]

/-- Reading a real array by coordinates gives a real cube. -/
theorem ofAct_real (x : Act) (hx : AllReal x) : RealCube (ofAct x) := fun b s d => hx (ix3 b s d)

/-- Dividing by the scale word is multiplying by the rational scale, at every extended real. -/
theorem scoreDiv_eq_scoreMul (Q K : Cube) : scoreDiv Q K = scoreMul Q K := by
  funext b q k
  unfold scoreDiv scoreMul invScale
  rw [scaleWord_eq, Ideal.div_coe (by norm_num)]
  norm_num

/-- Hence the two arrangements form the same weights. -/
theorem weightDiv_eq_weightMul (Q K : Cube) : weightDiv Q K = weightMul Q K := by
  funext b q k
  unfold weightDiv weightMul
  rw [scoreDiv_eq_scoreMul]

/-- The fold of max from the bottom element over a nonempty finite family of reals is a real. -/
theorem fold_max_real {ι : Type*} (f : ι → ℝ) (s : Finset ι) (hs : s.Nonempty) :
    ∃ m : ℝ, s.fold max ⊥ (fun i => (f i : EReal)) = (m : EReal) := by
  induction hs using Finset.Nonempty.cons_induction with
  | singleton a => exact ⟨f a, by simp⟩
  | cons a s ha hs ih =>
    obtain ⟨m, hm⟩ := ih
    refine ⟨max (f a) m, ?_⟩
    rw [Finset.fold_cons, hm]
    exact (EReal.coe_strictMono.monotone.map_max).symm

/-- Each weight of a real row is a positive real. -/
theorem weight_real (f : Fin 2048 → EReal) (hf : ∀ k, ∃ r : ℝ, f k = (r : EReal)) :
    ∃ a : Fin 2048 → ℝ, (∀ k, 0 < a k) ∧ ∀ k, Ideal.exp (f k - rowMax f) = (a k : EReal) := by
  choose fr hfr using hf
  obtain rfl : f = fun k => (fr k : EReal) := funext hfr
  obtain ⟨m, hm⟩ := fold_max_real fr Finset.univ Finset.univ_nonempty
  refine ⟨fun k => Real.exp (fr k - m), fun k => Real.exp_pos _, fun k => ?_⟩
  unfold rowMax
  rw [hm, ← EReal.coe_sub]
  rfl

/-- A scaled dot product of real rows is real. -/
theorem scoreMul_real (Q K : Cube) (hQ : RealCube Q) (hK : RealCube K) (b : Fin 8) (q k : Fin 2048) :
    ∃ r : ℝ, scoreMul Q K b q k = (r : EReal) := by
  choose qr hqr using hQ
  choose kr hkr using hK
  refine ⟨(∑ d : Fin 768, qr b q d * kr b k d) * (524288 / 14529495), ?_⟩
  simp only [scoreMul, dots, invScale, hqr, hkr]
  rw [EReal.coe_mul, coe_sum]
  simp only [EReal.coe_mul]

/-- Dividing a weighted sum by a nonzero real normaliser is normalising each weight first. -/
theorem div_sum_eq {ι : Type*} (s : Finset ι) (a v : ι → ℝ) (l : ℝ) (hl : l ≠ 0) :
    Ideal.div (∑ k ∈ s, (a k : EReal) * (v k : EReal)) (l : EReal)
      = ∑ k ∈ s, Ideal.div (a k : EReal) (l : EReal) * (v k : EReal) := by
  simp only [Ideal.div_coe hl, ← EReal.coe_mul, ← coe_sum]
  congr 1
  rw [Finset.sum_mul]
  exact Finset.sum_congr rfl fun k _ => by ring

/-- The two arrangements of attention agree on real queries, keys and values. -/
theorem attnDivAfter_eq_attnNormFirst (Q K V : Cube) (hQ : RealCube Q) (hK : RealCube K) (hV : RealCube V) :
    attnDivAfter Q K V = attnNormFirst Q K V := by
  funext b q d
  unfold attnDivAfter attnNormFirst
  rw [weightDiv_eq_weightMul]
  obtain ⟨a, hpos, ha⟩ := weight_real (scoreMul Q K b q) (scoreMul_real Q K hQ hK b q)
  have hw : ∀ k, weightMul Q K b q k = (a k : EReal) := ha
  choose v hv using hV
  simp only [hw, hv]
  rw [← coe_sum]
  exact div_sum_eq Finset.univ a (fun k => v b k d) _
    (ne_of_gt (Finset.sum_pos (fun k _ => hpos k) Finset.univ_nonempty))

/-- The two whole results agree on real activations and real query, key and value layers. -/
theorem outK_eq_outR (x : Act) (Wq : Wgt) (bq : Bias) (Wk : Wgt) (bk : Bias) (Wv : Wgt) (bv : Bias) (Wp : Wgt) (bp : Bias)
    (hx : AllReal x) (hWq : AllReal Wq) (hbq : AllReal bq) (hWk : AllReal Wk) (hbk : AllReal bk)
    (hWv : AllReal Wv) (hbv : AllReal bv) :
    outK x Wq bq Wk bk Wv bv Wp bp = outR x Wq bq Wk bk Wv bv Wp bp := by
  unfold outK outR
  rw [attnDivAfter_eq_attnNormFirst _ _ _ (lin_real _ _ _ (ofAct_real x hx) hWq hbq)
    (lin_real _ _ _ (ofAct_real x hx) hWk hbk) (lin_real _ _ _ (ofAct_real x hx) hWv hbv)]

end Cert.AttnSpec

end
-- ==== Proof.Finite.lean ====
/-
  From the precondition "every entry x of every argument satisfies |x| < +inf" to "every entry of every
  argument is a real number".

  The precondition is the conjunction, over the nine arguments, of the conjunction over all entries of the
  comparison |x| < c, where c is the value of the word 0x7F800000, which is +inf. An extended real x with
  max x (-x) < +inf is neither -inf (there -x = +inf) nor +inf, so it is the coercion of a real.
-/
import proofs.«110132_j49065706389646_2_alg».proof.Proof.Spec
import proofs.«110132_j49065706389646_2_alg».proof.Pre_finite_inputs
import proofs.«110132_j49065706389646_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.AttnSpec Cert.Pre_finite_inputs

/-- The word 0x7F800000 (sign 0, exponent all ones, trailing significand 0) denotes +inf. -/
theorem topWord_eq : Ideal.ofBits .f32 0x7F800000#32 = (⊤ : EReal) := by
  simp [Ideal.ofBits, Ideal.ieee]

/-- An extended real whose absolute value is below +inf is a real. -/
theorem real_of_abs_lt_top (x : EReal)
    (h : Ideal.cmp .olt (max x (-x)) (Ideal.ofBits .f32 0x7F800000#32) = 1#1) : ∃ r : ℝ, x = (r : EReal) := by
  rw [topWord_eq] at h
  induction x using EReal.rec with
  | bot => simp [Ideal.cmp] at h
  | coe r => exact ⟨r, rfl⟩
  | top => simp [Ideal.cmp] at h

/-- The rank-0 index set has one element. -/
instance subsingleton_rank0 : Subsingleton S_.Idx := ⟨fun a b => funext fun d => d.elim0⟩

/-- An array all of whose entries pass the comparison |x| < +inf has only real entries. -/
theorem allReal_of_cmp {s : Shape} (hb : S_.BroadcastsInDim s (![] : Fin 0 → Fin s.rank)) (x : FVec Ideal s .f32)
    (hall : ∀ i, cmpf .olt (Host.absf x) (broadcastInDim s ![] hb (constant (F := Ideal) S_ .f32 0x7F800000#32)) i = 1#1) :
    AllReal x := fun i => real_of_abs_lt_top (x i) (hall i)

/-- A conjunction of two one-bit arrays is 1 at an index exactly when both are. -/
theorem andi_apply_eq_one {s : Shape} (x y : IVec s 1) (i : s.Idx) : andi x y i = 1#1 ↔ x i = 1#1 ∧ y i = 1#1 :=
  IntOp.andi_eq_one

/-- Under the precondition every entry of each of the nine arguments is a real number. -/
theorem args_real [hF : Cert.Pre_finite_inputs.Facts]
    (a0 : Act) (a1 : Wgt) (a2 : Bias) (a3 : Wgt) (a4 : Bias) (a5 : Wgt) (a6 : Bias) (a7 : Wgt) (a8 : Bias)
    (h : Cert.Pre_finite_inputs.fn (F := Ideal) a0 a1 a2 a3 a4 a5 a6 a7 a8 = (fun _ => 1#1)) :
    AllReal a0 ∧ AllReal a1 ∧ AllReal a2 ∧ AllReal a3 ∧ AllReal a4 ∧ AllReal a5 ∧ AllReal a6 ∧ AllReal a7 ∧ AllReal a8 := by
  have h0 := congrFun h ValueIdx.ix0
  dsimp only [fn, fn_part1, fn_part2] at h0
  obtain ⟨h0, r8⟩ := (andi_apply_eq_one _ _ _).1 h0
  obtain ⟨h0, r7⟩ := (andi_apply_eq_one _ _ _).1 h0
  obtain ⟨h0, r6⟩ := (andi_apply_eq_one _ _ _).1 h0
  obtain ⟨h0, r5⟩ := (andi_apply_eq_one _ _ _).1 h0
  obtain ⟨h0, r4⟩ := (andi_apply_eq_one _ _ _).1 h0
  obtain ⟨h0, r3⟩ := (andi_apply_eq_one _ _ _).1 h0
  obtain ⟨h0, r2⟩ := (andi_apply_eq_one _ _ _).1 h0
  obtain ⟨r0, r1⟩ := (andi_apply_eq_one _ _ _).1 h0
  exact ⟨allReal_of_cmp _ a0 (Host.reduce_andi_all _ _ _ _ _ r0),
    allReal_of_cmp _ a1 (Host.reduce_andi_all _ _ _ _ _ r1),
    allReal_of_cmp _ a2 (Host.reduce_andi_all _ _ _ _ _ r2),
    allReal_of_cmp _ a3 (Host.reduce_andi_all _ _ _ _ _ r3),
    allReal_of_cmp _ a4 (Host.reduce_andi_all _ _ _ _ _ r4),
    allReal_of_cmp _ a5 (Host.reduce_andi_all _ _ _ _ _ r5),
    allReal_of_cmp _ a6 (Host.reduce_andi_all _ _ _ _ _ r6),
    allReal_of_cmp _ a7 (Host.reduce_andi_all _ _ _ _ _ r7),
    allReal_of_cmp _ a8 (Host.reduce_andi_all _ _ _ _ _ r8)⟩

end Cert.FiniteInputs

end
-- ==== Proof.lean ====
/-
  Self-attention with fused projections: an idealized two-kernel TPU program against its array-language reference, over
  the extended reals.

  Both programs take activations x[b, s, d] (8 x 2048 x 768), four 768 x 768 weight matrices and four bias vectors, form
  queries, keys and values as linear layers y = x W^T + bias, take for every query row the softmax over the 2048 key
  rows of its batch of the scaled scores, average the value rows with those weights, and apply a last linear layer.

  They differ in three ways, none of which changes the result when every input is finite:
  * the kernel works on tiles — the projections on 1024-row blocks of the flattened activations, the attention on
    256-row blocks of queries against whole batches of keys and values — where the reference works on whole arrays;
    every block written is the restriction of one whole-array function, and the blocks tile the arrays;
  * the kernel multiplies the scores by a constant which the certificate's table reads as the rational
    524288/14529495, the reference divides them by the f32 word 0x41DDB3D7 = 14529495/524288: the same scaling on
    every extended real (this reading of the constant is the one ledger entry, the fourth conjunct);
  * the kernel divides the weighted sum of value rows by the sum of the weights, the reference divides each weight
    first. With finite inputs every score is real, the row maximum is real, every weight is a positive real and
    their sum a positive real, so the division distributes over the sum. This is the only use of the precondition.

  The modules: Spec (both arrangements as functions of the nine arrays), Algebra (they agree on real inputs),
  Finite (the precondition makes every input entry real), RefSide (the reference's result is the second
  arrangement), ProjPayload / AttnPayload (each kernel body's stored value at an entry), Region0 / Region1 (each
  region's output arrays as whole-array functions of what the region reads), HostSide / HostIdx (the layout
  operations between them), KernelRun / KernelValue (the kernel's run with its result named, and that result as the
  first arrangement of the launch arrays).
-/
import proofs.«110132_j49065706389646_2_alg».proof.Defs
import proofs.«110132_j49065706389646_2_alg».proof.Proof.Gen.Kernel
import proofs.«110132_j49065706389646_2_alg».proof.Proof.Gen.Kernel.Frame
import proofs.«110132_j49065706389646_2_alg».proof.Proof.Gen.KernelIdeal
import proofs.«110132_j49065706389646_2_alg».proof.Proof.Gen.KernelIdeal.Frame
import proofs.«110132_j49065706389646_2_alg».proof.Proof.Gen.ReferenceIdeal
import proofs.«110132_j49065706389646_2_alg».proof.Proof.Gen.Pre_finite_inputs
import proofs.«110132_j49065706389646_2_alg».proof.Proof.Gen.ReferenceIdeal.Run
import proofs.«110132_j49065706389646_2_alg».proof.Proof.Gen.ReferenceIdeal.Read
import proofs.«110132_j49065706389646_2_alg».proof.Proof.KernelValue
import proofs.«110132_j49065706389646_2_alg».proof.Proof.RefSide
import proofs.«110132_j49065706389646_2_alg».proof.Proof.Algebra
import proofs.«110132_j49065706389646_2_alg».proof.Proof.Finite
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The one ledger entry: the table gives the score scale the value 524288/14529495, and the printed constant is that
    value at the ideal instance. -/
theorem preserves : Cert.preserves_Kernel_KernelIdeal :=
  IdealRules.named_const.statement Cert.KernelIdeal.κ "inv_scale" .f32 0x3D13CD3A#32 ((524288 / 14529495 : ℝ) : EReal) rfl

/-- From memories agreeing on the nine arguments, with finite inputs, the two idealized programs end with the same
    result: the kernel at the "divide after the sum" arrangement of its launch arrays, the reference at the
    "normalise first" arrangement of its own, and the two arrangements agree on real inputs. -/
theorem algebraic : Cert.algebraic_KernelIdeal_ReferenceIdeal := by
  intro m ρ m' ρ' hpre hagree
  refine ⟨fun c => fun (i : Cert.KernelIdeal.S8x2048x768.Idx) =>
    Cert.AttnSpec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (i 0) (i 1) (i 2), ?_, ?_⟩
  · exact (θ_run Cert.KernelIdeal.defs _ _).mono
      (fun r h c => ⟨(h c).1.trans (Cert.KernelIdeal.Result.result_value m ρ c), (h c).2⟩)
      (Cert.KernelIdeal.Result.run_result m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8⟩ := hagree c
    obtain ⟨r0, r1, r2, r3, r4, r5, r6, -, -⟩ := Cert.FiniteInputs.args_real _ _ _ _ _ _ _ _ _ (hpre c)
    rw [(h c).1, Cert.ReferenceIdeal.Read.val_main_v30_eq, Cert.RefSide.ref_is_outR, h0, h1, h2, h3, h4, h5, h6, h7, h8,
      ← Cert.AttnSpec.outK_eq_outR _ _ _ _ _ _ _ _ _ r0 r1 r2 r3 r4 r5 r6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
